-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x2048 : Shape := ⟨2, ![131072, 2048]⟩
abbrev S2048x256 : Shape := ⟨2, ![2048, 256]⟩
abbrev S256 : Shape := ⟨1, ![256]⟩
abbrev S256x128 : Shape := ⟨2, ![256, 128]⟩
abbrev S128 : Shape := ⟨1, ![128]⟩
abbrev S128x128 : Shape := ⟨2, ![128, 128]⟩
abbrev S128x32 : Shape := ⟨2, ![128, 32]⟩
abbrev S32x2048 : Shape := ⟨2, ![32, 2048]⟩
abbrev S2048 : Shape := ⟨1, ![2048]⟩
abbrev S256x2048 : Shape := ⟨2, ![256, 2048]⟩
abbrev S_ : Shape := ⟨0, ![]⟩

class Facts : Prop where
  bcast_S_S131072x2048 : S_.BroadcastsInDim S131072x2048 (![] : Fin 0 → Fin S131072x2048.rank)
  reducesTo_S131072x2048_S_d0_1 : S131072x2048.ReducesTo [0, 1] S_
  h_S_ : 0 < S_.numel
  bcast_S_S2048x256 : S_.BroadcastsInDim S2048x256 (![] : Fin 0 → Fin S2048x256.rank)
  reducesTo_S2048x256_S_d0_1 : S2048x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x32 : S_.BroadcastsInDim S128x32 (![] : Fin 0 → Fin S128x32.rank)
  reducesTo_S128x32_S_d0_1 : S128x32.ReducesTo [0, 1] S_
  bcast_S_S32x2048 : S_.BroadcastsInDim S32x2048 (![] : Fin 0 → Fin S32x2048.rank)
  reducesTo_S32x2048_S_d0_1 : S32x2048.ReducesTo [0, 1] S_
  bcast_S_S2048 : S_.BroadcastsInDim S2048 (![] : Fin 0 → Fin S2048.rank)
  reducesTo_S2048_S_d0 : S2048.ReducesTo [0] S_
  bcast_S_S256x2048 : S_.BroadcastsInDim S256x2048 (![] : Fin 0 → Fin S256x2048.rank)
  reducesTo_S256x2048_S_d0_1 : S256x2048.ReducesTo [0, 1] S_

variable [Facts]

def fn_part3 {F : FTy → Type} [FloatOps F] (main_arg11 : FVec F S2048 .f32) (main_arg12 : FVec F S256x2048 .f32) (main_v48 : IVec S_ 1) (main_v49 : FVec F S32x2048 .f32) (main_v50 : FVec F S32x2048 .f32) : IVec S_ 1 :=
  let main_v51 : IVec S32x2048 1 := cmpf .olt main_v49 main_v50
  let main_c_19 : IVec S_ 1 := constantI S_ 1 1#1
  let main_v52 : IVec S_ 1 := (fun x v => Host.reduce IntOp.andi x v reducesTo_S32x2048_S_d0_1 h_S_) main_v51 main_c_19
  let main_v53 : IVec S_ 1 := andi main_v48 main_v52
  let main_v54 : FVec F S2048 .f32 := Host.absf main_arg11
  let main_cst_20 : FVec F S_ .f32 := constant S_ .f32 0x7F800000#32
  let main_v55 : FVec F S2048 .f32 := broadcastInDim S2048 ![] bcast_S_S2048 main_cst_20
  let main_v56 : IVec S2048 1 := cmpf .olt main_v54 main_v55
  let main_c_21 : IVec S_ 1 := constantI S_ 1 1#1
  let main_v57 : IVec S_ 1 := (fun x v => Host.reduce IntOp.andi x v reducesTo_S2048_S_d0 h_S_) main_v56 main_c_21
  let main_v58 : IVec S_ 1 := andi main_v53 main_v57
  let main_v59 : FVec F S256x2048 .f32 := Host.absf main_arg12
  let main_cst_22 : FVec F S_ .f32 := constant S_ .f32 0x7F800000#32
  let main_v60 : FVec F S256x2048 .f32 := broadcastInDim S256x2048 ![] bcast_S_S256x2048 main_cst_22
  let main_v61 : IVec S256x2048 1 := cmpf .olt main_v59 main_v60
  let main_c_23 : IVec S_ 1 := constantI S_ 1 1#1
  let main_v62 : IVec S_ 1 := (fun x v => Host.reduce IntOp.andi x v reducesTo_S256x2048_S_d0_1 h_S_) main_v61 main_c_23
  let main_v63 : IVec S_ 1 := andi main_v58 main_v62
  main_v63

def fn_part2 {F : FTy → Type} [FloatOps F] (main_arg7 : FVec F S128x128 .f32) (main_arg8 : FVec F S128 .f32) (main_arg9 : FVec F S128x32 .f32) (main_arg10 : FVec F S32x2048 .f32) (main_arg11 : FVec F S2048 .f32) (main_arg12 : FVec F S256x2048 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x32 .f32 := Host.absf main_arg9
  let main_cst_16 : FVec F S_ .f32 := constant S_ .f32 0x7F800000#32
  let main_v45 : FVec F S128x32 .f32 := broadcastInDim S128x32 ![] bcast_S_S128x32 main_cst_16
  let main_v46 : IVec S128x32 1 := cmpf .olt main_v44 main_v45
  let main_c_17 : IVec S_ 1 := constantI S_ 1 1#1
  let main_v47 : IVec S_ 1 := (fun x v => Host.reduce IntOp.andi x v reducesTo_S128x32_S_d0_1 h_S_) main_v46 main_c_17
  let main_v48 : IVec S_ 1 := andi main_v43 main_v47
  let main_v49 : FVec F S32x2048 .f32 := Host.absf main_arg10
  let main_cst_18 : FVec F S_ .f32 := constant S_ .f32 0x7F800000#32
  let main_v50 : FVec F S32x2048 .f32 := broadcastInDim S32x2048 ![] bcast_S_S32x2048 main_cst_18
  fn_part3 (F := F) main_arg11 main_arg12 main_v48 main_v49 main_v50

def fn_part1 {F : FTy → Type} [FloatOps F] (main_arg4 : FVec F S128 .f32) (main_arg5 : FVec F S128x128 .f32) (main_arg6 : FVec F S128 .f32) (main_arg7 : FVec F S128x128 .f32) (main_arg8 : FVec F S128 .f32) (main_arg9 : FVec F S128x32 .f32) (main_arg10 : FVec F S32x2048 .f32) (main_arg11 : FVec F S2048 .f32) (main_arg12 : FVec F S256x2048 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S131072x2048 .f32) (main_arg1 : FVec F S2048x256 .f32) (main_arg2 : FVec F S256 .f32) (main_arg3 : FVec F S256x128 .f32) (main_arg4 : FVec F S128 .f32) (main_arg5 : FVec F S128x128 .f32) (main_arg6 : FVec F S128 .f32) (main_arg7 : FVec F S128x128 .f32) (main_arg8 : FVec F S128 .f32) (main_arg9 : FVec F S128x32 .f32) (main_arg10 : FVec F S32x2048 .f32) (main_arg11 : FVec F S2048 .f32) (main_arg12 : FVec F S256x2048 .f32) : IVec S_ 1 :=
  let main_v0 : FVec F S131072x2048 .f32 := Host.absf main_arg0
  let main_cst : FVec F S_ .f32 := constant S_ .f32 0x7F800000#32
  let main_v1 : FVec F S131072x2048 .f32 := broadcastInDim S131072x2048 ![] bcast_S_S131072x2048 main_cst
  let main_v2 : IVec S131072x2048 1 := cmpf .olt main_v0 main_v1
  let main_c : IVec S_ 1 := constantI S_ 1 1#1
  let main_v3 : IVec S_ 1 := (fun x v => Host.reduce IntOp.andi x v reducesTo_S131072x2048_S_d0_1 h_S_) main_v2 main_c
  let main_v4 : FVec F S2048x256 .f32 := Host.absf main_arg1
  let main_cst_0 : FVec F S_ .f32 := constant S_ .f32 0x7F800000#32
  let main_v5 : FVec F S2048x256 .f32 := broadcastInDim S2048x256 ![] bcast_S_S2048x256 main_cst_0
  let main_v6 : IVec S2048x256 1 := cmpf .olt main_v4 main_v5
  let main_c_1 : IVec S_ 1 := constantI S_ 1 1#1
  let main_v7 : IVec S_ 1 := (fun x v => Host.reduce IntOp.andi x v reducesTo_S2048x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg3
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg4 main_arg5 main_arg6 main_arg7 main_arg8 main_arg9 main_arg10 main_arg11 main_arg12 main_v13 main_v16
-- ==== Kernel.lean ====
abbrev S131072x2048 : Shape := ⟨2, ![131072, 2048]⟩
abbrev S2048x256 : Shape := ⟨2, ![2048, 256]⟩
abbrev S256 : Shape := ⟨1, ![256]⟩
abbrev S256x128 : Shape := ⟨2, ![256, 128]⟩
abbrev S128 : Shape := ⟨1, ![128]⟩
abbrev S128x128 : Shape := ⟨2, ![128, 128]⟩
abbrev S128x32 : Shape := ⟨2, ![128, 32]⟩
abbrev S32x2048 : Shape := ⟨2, ![32, 2048]⟩
abbrev S2048 : Shape := ⟨1, ![2048]⟩
abbrev S256x2048 : Shape := ⟨2, ![256, 2048]⟩
abbrev S1x2048 : Shape := ⟨2, ![1, 2048]⟩
abbrev S1x256 : Shape := ⟨2, ![1, 256]⟩
abbrev S_ : Shape := ⟨0, ![]⟩
abbrev S128x2048 : Shape := ⟨2, ![128, 2048]⟩
abbrev S1x128 : Shape := ⟨2, ![1, 128]⟩
abbrev S512x2048 : Shape := ⟨2, ![512, 2048]⟩
abbrev S512x256 : Shape := ⟨2, ![512, 256]⟩
abbrev S512x128 : Shape := ⟨2, ![512, 128]⟩

abbrev nBuf : Space → Nat
  | .hbm => 38
  | .vmem => 16
  | .smem => 0
  | _ => 0

abbrev bufTy : (tb : Table) → Fin (tcTables nBuf tb) → BufTy
  | .hbm, ⟨0, _⟩ => ⟨S131072x2048, .f32⟩
  | .hbm, ⟨1, _⟩ => ⟨S2048x256, .f32⟩
  | .hbm, ⟨2, _⟩ => ⟨S256, .f32⟩
  | .hbm, ⟨3, _⟩ => ⟨S256x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x32, .f32⟩
  | .hbm, ⟨10, _⟩ => ⟨S32x2048, .f32⟩
  | .hbm, ⟨11, _⟩ => ⟨S2048, .f32⟩
  | .hbm, ⟨12, _⟩ => ⟨S256x2048, .f32⟩
  | .hbm, ⟨13, _⟩ => ⟨S1x2048, .f32⟩
  | .hbm, ⟨14, _⟩ => ⟨S1x256, .f32⟩
  | .hbm, ⟨15, _⟩ => ⟨S256, .f32⟩
  | .hbm, ⟨16, _⟩ => ⟨S256, .f32⟩
  | .hbm, ⟨17, _⟩ => ⟨S1x256, .f32⟩
  | .hbm, ⟨18, _⟩ => ⟨S2048x256, .bf16⟩
  | .hbm, ⟨19, _⟩ => ⟨S256x128, .bf16⟩
  | .hbm, ⟨20, _⟩ => ⟨S128x128, .f32⟩
  | .hbm, ⟨21, _⟩ => ⟨S128x128, .bf16⟩
  | .hbm, ⟨22, _⟩ => ⟨S128x128, .f32⟩
  | .hbm, ⟨23, _⟩ => ⟨S128x128, .bf16⟩
  | .hbm, ⟨24, _⟩ => ⟨S_, .i32⟩
  | .hbm, ⟨25, _⟩ => ⟨S_, .f32⟩
  | .hbm, ⟨26, _⟩ => ⟨S128x128, .f32⟩
  | .hbm, ⟨27, _⟩ => ⟨S128x128, .bf16⟩
  | .hbm, ⟨28, _⟩ => ⟨S_, .i32⟩
  | .hbm, ⟨29, _⟩ => ⟨S_, .f32⟩
  | .hbm, ⟨30, _⟩ => ⟨S128x2048, .f32⟩
  | .hbm, ⟨31, _⟩ => ⟨S128x2048, .bf16⟩
  | .hbm, ⟨32, _⟩ => ⟨S256x2048, .bf16⟩
  | .hbm, ⟨33, _⟩ => ⟨S1x128, .f32⟩
  | .hbm, ⟨34, _⟩ => ⟨S1x128, .f32⟩
  | .hbm, ⟨35, _⟩ => ⟨S1x128, .f32⟩
  | .hbm, ⟨36, _⟩ => ⟨S1x2048, .f32⟩
  | .hbm, ⟨37, _⟩ => ⟨S131072x2048, .f32⟩
  | .local _ .vmem, ⟨0, _⟩ => ⟨S512x2048, .f32⟩
  | .local _ .vmem, ⟨1, _⟩ => ⟨S512x2048, .f32⟩
  | .local _ .vmem, ⟨2, _⟩ => ⟨S2048x256, .bf16⟩
  | .local _ .vmem, ⟨3, _⟩ => ⟨S1x256, .f32⟩
  | .local _ .vmem, ⟨4, _⟩ => ⟨S256x128, .bf16⟩
  | .local _ .vmem, ⟨5, _⟩ => ⟨S1x128, .f32⟩
  | .local _ .vmem, ⟨6, _⟩ => ⟨S128x128, .bf16⟩
  | .local _ .vmem, ⟨7, _⟩ => ⟨S1x128, .f32⟩
  | .local _ .vmem, ⟨8, _⟩ => ⟨S128x128, .bf16⟩
  | .local _ .vmem, ⟨9, _⟩ => ⟨S1x128, .f32⟩
  | .local _ .vmem, ⟨10, _⟩ => ⟨S128x128, .bf16⟩
  | .local _ .vmem, ⟨11, _⟩ => ⟨S128x2048, .bf16⟩
  | .local _ .vmem, ⟨12, _⟩ => ⟨S1x2048, .f32⟩
  | .local _ .vmem, ⟨13, _⟩ => ⟨S256x2048, .bf16⟩
  | .local _ .vmem, ⟨14, _⟩ => ⟨S512x2048, .f32⟩
  | .local _ .vmem, ⟨15, _⟩ => ⟨S512x2048, .f32⟩
  | _, _ => ⟨S131072x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c : Ref sig .tc := ⟨.hbm, 24, rfl⟩
abbrev main_call0_v0 : Ref sig .tc := ⟨.hbm, 25, rfl⟩
abbrev main_v11 : Ref sig .tc := ⟨.hbm, 26, rfl⟩
abbrev main_v12 : Ref sig .tc := ⟨.hbm, 27, rfl⟩
abbrev main_c_0 : Ref sig .tc := ⟨.hbm, 28, rfl⟩
abbrev main_call1_v0 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x2048 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  shapeCasts_S2048_S1x2048 : S2048.ShapeCasts S1x2048
  shapeCasts_S1x256_S256 : S1x256.ShapeCasts S256
  shapeCasts_S256_S1x256 : S256.ShapeCasts S1x256
  bitsLt_bf16_f32 : FTy.bits .bf16 < FTy.bits .f32
  transposes_S128x128_S128x128_1_0 : S128x128.Transposes [1, 0] S128x128
  pads_S128x32_S128x128_000_0960 : S128x32.Pads (![0, 0] : Fin 2 → Nat) ![0, 96] ![0, 0] S128x128
  h_S_ : 0 < S_.numel
  pads_S32x2048_S128x2048_0960_000 : S32x2048.Pads (![0, 0] : Fin 2 → Nat) ![96, 0] ![0, 0] S128x2048
  shapeCasts_S128_S1x128 : S128.ShapeCasts S1x128
  inb_S512x2048_S512x2048_0_0 : ∀ a, (![0, 0] : Fin 2 → Nat) a + S512x2048.size a ≤ S512x2048.size a
  h_S512x2048 : 0 < S512x2048.numel
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  dot_S1x2048_S2048x256_S1x256_1_0_0_1_n_n_wf : DotDims.WF S1x2048 S2048x256 S1x256 [1] [0] [0] [1] [] []
  dot_S512x2048_S2048x256_S512x256_1_0_0_1_n_n_wf : DotDims.WF S512x2048 S2048x256 S512x256 [1] [0] [0] [1] [] []
  dot_S512x256_S256x128_S512x128_1_0_0_1_n_n_wf : DotDims.WF S512x256 S256x128 S512x128 [1] [0] [0] [1] [] []
  dot_S512x128_S128x128_S512x128_1_0_0_1_n_n_wf : DotDims.WF S512x128 S128x128 S512x128 [1] [0] [0] [1] [] []
  dot_S512x128_S128x2048_S512x2048_1_0_0_1_n_n_wf : DotDims.WF S512x128 S128x2048 S512x2048 [1] [0] [0] [1] [] []
  dot_S512x256_S256x2048_S512x2048_1_0_0_1_n_n_wf : DotDims.WF S512x256 S256x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S131072x2048.size a
  hwx0_0 : ∀ i : grid0.Coords, EltTy.bits .f32 = 32 ∨ (Rect.block (s := S131072x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S2048x256.size a
  hwx0_1 : ∀ i : grid0.Coords, EltTy.bits .bf16 = 32 ∨ (Rect.block (s := S2048x256) S2048x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .bf16 = 32 ∨ (Rect.block (s := S256x128) S256x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .bf16 = 32 ∨ (Rect.block (s := S128x128) S128x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .bf16 = 32 ∨ (Rect.block (s := S128x128) S128x128.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x2048.size a ≤ S128x2048.size a
  hwx0_10 : ∀ i : grid0.Coords, EltTy.bits .bf16 = 32 ∨ (Rect.block (s := S128x2048) S128x2048.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x2048.size a ≤ S1x2048.size a
  hwx0_11 : ∀ i : grid0.Coords, EltTy.bits .f32 = 32 ∨ (Rect.block (s := S1x2048) S1x2048.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S256x2048.size a ≤ S256x2048.size a
  hwx0_12 : ∀ i : grid0.Coords, EltTy.bits .bf16 = 32 ∨ (Rect.block (s := S256x2048) S256x2048.size (cc0_transform_12 i) (hinb0_12 i)).WholeWords (EltTy.packing .bf16)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S512x2048.size a ≤ S131072x2048.size a
  hwx0_13 : ∀ i : grid0.Coords, EltTy.bits .f32 = 32 ∨ (Rect.block (s := S131072x2048) S512x2048.size (cc0_transform_13 i) (hinb0_13 i)).WholeWords (EltTy.packing .f32)

variable [Facts₀]

def dot_S1x2048_S2048x256_S1x256_1_0_0_1_n_n : DotDims S1x2048 S2048x256 S1x256 where
  lhsContracting := [1]
  rhsContracting := [0]
  lhsNonContracting := [0]
  rhsNonContracting := [1]
  lhsBatch := []
  rhsBatch := []
  wf := dot_S1x2048_S2048x256_S1x256_1_0_0_1_n_n_wf
def dot_S512x2048_S2048x256_S512x256_1_0_0_1_n_n : DotDims S512x2048 S2048x256 S512x256 where
  lhsContracting := [1]
  rhsContracting := [0]
  lhsNonContracting := [0]
  rhsNonContracting := [1]
  lhsBatch := []
  rhsBatch := []
  wf := dot_S512x2048_S2048x256_S512x256_1_0_0_1_n_n_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x128_S128x2048_S512x2048_1_0_0_1_n_n : DotDims S512x128 S128x2048 S512x2048 where
  lhsContracting := [1]
  rhsContracting := [0]
  lhsNonContracting := [0]
  rhsNonContracting := [1]
  lhsBatch := []
  rhsBatch := []
  wf := dot_S512x128_S128x2048_S512x2048_1_0_0_1_n_n_wf
def dot_S512x256_S256x2048_S512x2048_1_0_0_1_n_n : DotDims S512x256 S256x2048 S512x2048 where
  lhsContracting := [1]
  rhsContracting := [0]
  lhsNonContracting := [0]
  rhsNonContracting := [1]
  lhsBatch := []
  rhsBatch := []
  wf := dot_S512x256_S256x2048_S512x2048_1_0_0_1_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S2048x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v17) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v18) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v12) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v14) S128x2048.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v19) S1x2048.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v15) S256x2048.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v20) S512x2048.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S131072x2048 : Shape := ⟨2, ![131072, 2048]⟩
abbrev S2048x256 : Shape := ⟨2, ![2048, 256]⟩
abbrev S256 : Shape := ⟨1, ![256]⟩
abbrev S256x128 : Shape := ⟨2, ![256, 128]⟩
abbrev S128 : Shape := ⟨1, ![128]⟩
abbrev S128x128 : Shape := ⟨2, ![128, 128]⟩
abbrev S128x32 : Shape := ⟨2, ![128, 32]⟩
abbrev S32x2048 : Shape := ⟨2, ![32, 2048]⟩
abbrev S2048 : Shape := ⟨1, ![2048]⟩
abbrev S256x2048 : Shape := ⟨2, ![256, 2048]⟩
abbrev S1x2048 : Shape := ⟨2, ![1, 2048]⟩
abbrev S131072x256 : Shape := ⟨2, ![131072, 256]⟩
abbrev S1x256 : Shape := ⟨2, ![1, 256]⟩
abbrev S_ : Shape := ⟨0, ![]⟩
abbrev S131072x128 : Shape := ⟨2, ![131072, 128]⟩
abbrev S1x128 : Shape := ⟨2, ![1, 128]⟩
abbrev S131072x32 : Shape := ⟨2, ![131072, 32]⟩

abbrev nBuf : Space → Nat
  | .hbm => 50
  | .vmem => 0
  | .smem => 0
  | _ => 0

abbrev bufTy : (tb : Table) → Fin (tcTables nBuf tb) → BufTy
  | .hbm, ⟨0, _⟩ => ⟨S131072x2048, .f32⟩
  | .hbm, ⟨1, _⟩ => ⟨S2048x256, .f32⟩
  | .hbm, ⟨2, _⟩ => ⟨S256, .f32⟩
  | .hbm, ⟨3, _⟩ => ⟨S256x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x32, .f32⟩
  | .hbm, ⟨10, _⟩ => ⟨S32x2048, .f32⟩
  | .hbm, ⟨11, _⟩ => ⟨S2048, .f32⟩
  | .hbm, ⟨12, _⟩ => ⟨S256x2048, .f32⟩
  | .hbm, ⟨13, _⟩ => ⟨S1x2048, .f32⟩
  | .hbm, ⟨14, _⟩ => ⟨S131072x2048, .f32⟩
  | .hbm, ⟨15, _⟩ => ⟨S131072x2048, .f32⟩
  | .hbm, ⟨16, _⟩ => ⟨S131072x256, .f32⟩
  | .hbm, ⟨17, _⟩ => ⟨S1x256, .f32⟩
  | .hbm, ⟨18, _⟩ => ⟨S131072x256, .f32⟩
  | .hbm, ⟨19, _⟩ => ⟨S131072x256, .f32⟩
  | .hbm, ⟨20, _⟩ => ⟨S_, .f32⟩
  | .hbm, ⟨21, _⟩ => ⟨S131072x256, .f32⟩
  | .hbm, ⟨22, _⟩ => ⟨S131072x256, .f32⟩
  | .hbm, ⟨23, _⟩ => ⟨S131072x128, .f32⟩
  | .hbm, ⟨24, _⟩ => ⟨S1x128, .f32⟩
  | .hbm, ⟨25, _⟩ => ⟨S131072x128, .f32⟩
  | .hbm, ⟨26, _⟩ => ⟨S131072x128, .f32⟩
  | .hbm, ⟨27, _⟩ => ⟨S_, .f32⟩
  | .hbm, ⟨28, _⟩ => ⟨S131072x128, .f32⟩
  | .hbm, ⟨29, _⟩ => ⟨S131072x128, .f32⟩
  | .hbm, ⟨30, _⟩ => ⟨S128x128, .f32⟩
  | .hbm, ⟨31, _⟩ => ⟨S131072x128, .f32⟩
  | .hbm, ⟨32, _⟩ => ⟨S1x128, .f32⟩
  | .hbm, ⟨33, _⟩ => ⟨S131072x128, .f32⟩
  | .hbm, ⟨34, _⟩ => ⟨S131072x128, .f32⟩
  | .hbm, ⟨35, _⟩ => ⟨S128x128, .f32⟩
  | .hbm, ⟨36, _⟩ => ⟨S131072x128, .f32⟩
  | .hbm, ⟨37, _⟩ => ⟨S1x128, .f32⟩
  | .hbm, ⟨38, _⟩ => ⟨S131072x128, .f32⟩
  | .hbm, ⟨39, _⟩ => ⟨S131072x128, .f32⟩
  | .hbm, ⟨40, _⟩ => ⟨S131072x32, .f32⟩
  | .hbm, ⟨41, _⟩ => ⟨S_, .f32⟩
  | .hbm, ⟨42, _⟩ => ⟨S131072x32, .f32⟩
  | .hbm, ⟨43, _⟩ => ⟨S131072x32, .f32⟩
  | .hbm, ⟨44, _⟩ => ⟨S131072x2048, .f32⟩
  | .hbm, ⟨45, _⟩ => ⟨S131072x2048, .f32⟩
  | .hbm, ⟨46, _⟩ => ⟨S131072x2048, .f32⟩
  | .hbm, ⟨47, _⟩ => ⟨S1x2048, .f32⟩
  | .hbm, ⟨48, _⟩ => ⟨S131072x2048, .f32⟩
  | .hbm, ⟨49, _⟩ => ⟨S131072x2048, .f32⟩
  | _, _ => ⟨S131072x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_call0_cst : Ref sig .tc := ⟨.hbm, 20, rfl⟩
abbrev main_call0_v0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_call1_cst : Ref sig .tc := ⟨.hbm, 27, rfl⟩
abbrev main_call1_v0 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_call2_cst : Ref sig .tc := ⟨.hbm, 41, rfl⟩
abbrev main_call2_v0 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  bcast_S1x2048_S131072x2048_0_1 : S1x2048.BroadcastsInDim S131072x2048 (![0, 1] : Fin 2 → Fin S131072x2048.rank)
  bcast_S256_S1x256_1 : S256.BroadcastsInDim S1x256 (![1] : Fin 1 → Fin S1x256.rank)
  bcast_S1x256_S131072x256_0_1 : S1x256.BroadcastsInDim S131072x256 (![0, 1] : Fin 2 → Fin S131072x256.rank)
  bcast_S_S131072x256 : S_.BroadcastsInDim S131072x256 (![] : Fin 0 → Fin S131072x256.rank)
  bcast_S128_S1x128_1 : S128.BroadcastsInDim S1x128 (![1] : Fin 1 → Fin S1x128.rank)
  bcast_S1x128_S131072x128_0_1 : S1x128.BroadcastsInDim S131072x128 (![0, 1] : Fin 2 → Fin S131072x128.rank)
  bcast_S_S131072x128 : S_.BroadcastsInDim S131072x128 (![] : Fin 0 → Fin S131072x128.rank)
  transposes_S128x128_S128x128_1_0 : S128x128.Transposes [1, 0] S128x128
  bcast_S_S131072x32 : S_.BroadcastsInDim S131072x32 (![] : Fin 0 → Fin S131072x32.rank)
  dot_S131072x2048_S2048x256_S131072x256_1_0_0_1_n_n_wf : DotDims.WF S131072x2048 S2048x256 S131072x256 [1] [0] [0] [1] [] []
  dot_S131072x256_S256x128_S131072x128_1_0_0_1_n_n_wf : DotDims.WF S131072x256 S256x128 S131072x128 [1] [0] [0] [1] [] []
  dot_S131072x128_S128x128_S131072x128_1_0_0_1_n_n_wf : DotDims.WF S131072x128 S128x128 S131072x128 [1] [0] [0] [1] [] []
  dot_S131072x128_S128x32_S131072x32_1_0_0_1_n_n_wf : DotDims.WF S131072x128 S128x32 S131072x32 [1] [0] [0] [1] [] []
  dot_S131072x32_S32x2048_S131072x2048_1_0_0_1_n_n_wf : DotDims.WF S131072x32 S32x2048 S131072x2048 [1] [0] [0] [1] [] []
  dot_S131072x256_S256x2048_S131072x2048_1_0_0_1_n_n_wf : DotDims.WF S131072x256 S256x2048 S131072x2048 [1] [0] [0] [1] [] []

variable [Facts₀]

def dot_S131072x2048_S2048x256_S131072x256_1_0_0_1_n_n : DotDims S131072x2048 S2048x256 S131072x256 where
  lhsContracting := [1]
  rhsContracting := [0]
  lhsNonContracting := [0]
  rhsNonContracting := [1]
  lhsBatch := []
  rhsBatch := []
  wf := dot_S131072x2048_S2048x256_S131072x256_1_0_0_1_n_n_wf
def dot_S131072x256_S256x128_S131072x128_1_0_0_1_n_n : DotDims S131072x256 S256x128 S131072x128 where
  lhsContracting := [1]
  rhsContracting := [0]
  lhsNonContracting := [0]
  rhsNonContracting := [1]
  lhsBatch := []
  rhsBatch := []
  wf := dot_S131072x256_S256x128_S131072x128_1_0_0_1_n_n_wf
def dot_S131072x128_S128x128_S131072x128_1_0_0_1_n_n : DotDims S131072x128 S128x128 S131072x128 where
  lhsContracting := [1]
  rhsContracting := [0]
  lhsNonContracting := [0]
  rhsNonContracting := [1]
  lhsBatch := []
  rhsBatch := []
  wf := dot_S131072x128_S128x128_S131072x128_1_0_0_1_n_n_wf
def dot_S131072x128_S128x32_S131072x32_1_0_0_1_n_n : DotDims S131072x128 S128x32 S131072x32 where
  lhsContracting := [1]
  rhsContracting := [0]
  lhsNonContracting := [0]
  rhsNonContracting := [1]
  lhsBatch := []
  rhsBatch := []
  wf := dot_S131072x128_S128x32_S131072x32_1_0_0_1_n_n_wf
def dot_S131072x32_S32x2048_S131072x2048_1_0_0_1_n_n : DotDims S131072x32 S32x2048 S131072x2048 where
  lhsContracting := [1]
  rhsContracting := [0]
  lhsNonContracting := [0]
  rhsNonContracting := [1]
  lhsBatch := []
  rhsBatch := []
  wf := dot_S131072x32_S32x2048_S131072x2048_1_0_0_1_n_n_wf
def dot_S131072x256_S256x2048_S131072x2048_1_0_0_1_n_n : DotDims S131072x256 S256x2048 S131072x2048 where
  lhsContracting := [1]
  rhsContracting := [0]
  lhsNonContracting := [0]
  rhsNonContracting := [1]
  lhsBatch := []
  rhsBatch := []
  wf := dot_S131072x256_S256x2048_S131072x2048_1_0_0_1_n_n_wf

class Facts : Prop extends Facts₀ where

variable [Facts]
-- ==== Proof.Net.lean ====
/-
  The network both programs compute, row by row, on the extended reals, and the two laws that join their spellings.

  One input row `a : Fin 2048 → EReal` is encoded to 256 features (an affine map and a rectifier), those to 128
  (affine, rectifier), then two affine maps on 128 (the value and output projections of an attention over a single
  key, whose softmax weight is 1), a bottleneck of width `κ` (a linear map and a rectifier), and the decoder: the
  bottleneck times `Wd`, plus the 256 features times a residual matrix, plus a bias.

  Two spellings meet here.
  * The encoder's input is `a - d` for a bias row `d`. One program subtracts before the product; the other adds
    `e - ∑ d·w` to the product of `a` itself. On real numbers these agree by distributivity; at an infinity they need
    not, so the law `enc_bias_fold` asks every entry involved to be a real number.
  * The bottleneck has width 32. One program carries it at width 128 with the 96 extra columns of its matrix, and
    the 96 extra rows of the decoder's matrix, equal to zero. A term of the decoder's sum with a zero factor from
    `Wd` is zero on the extended reals whatever the other factor is (`x * 0 = 0`), so the extra terms drop
    (`decode_pad`); no finiteness is needed.
-/
import Idealize.ShloMosaic.Lib.ValueIdx

noncomputable section

open scoped BigOperators

namespace Cert.Net

/-! ## Sums of real numbers inside the extended reals -/

/-- The inclusion of the reals commutes with a finite sum. -/
theorem coe_sum {ι : Type} (s : Finset ι) (f : ι → ℝ) : ((∑ i ∈ s, f i : ℝ) : EReal) = ∑ i ∈ s, (f i : EReal) := by
  classical
  refine Finset.induction_on s ?_ ?_
  · simp
  · intro i s hi ih
    rw [Finset.sum_insert hi, Finset.sum_insert hi, EReal.coe_add, ih]

/-- THE BIAS FOLD. For real `a`, `d`, `w`, `e`: the product of `a` plus the folded bias `e - ∑ d·w` is the product of
    `a - d` plus `e`. -/
theorem enc_bias_fold {K : ℕ} (a d w : Fin K → EReal) (e : EReal)
    (ha : ∀ k, ∃ r : ℝ, a k = (r : EReal)) (hd : ∀ k, ∃ r : ℝ, d k = (r : EReal))
    (hw : ∀ k, ∃ r : ℝ, w k = (r : EReal)) (he : ∃ r : ℝ, e = (r : EReal)) :
    (∑ k, a k * w k) + (e - ∑ k, d k * w k) = (∑ k, (a k - d k) * w k) + e := by
  choose a' ha using ha
  choose d' hd using hd
  choose w' hw using hw
  obtain ⟨e', rfl⟩ := he
  simp only [ha, hd, hw]
  simp only [← EReal.coe_mul, ← EReal.coe_sub, ← coe_sum, ← EReal.coe_add]
  refine congrArg _ ?_
  simp only [sub_mul, Finset.sum_sub_distrib]
  ring

/-- A sum over `a + b` indices whose last `b` terms are zero is the sum of the first `a`. -/
theorem sum_zero_tail {a b : ℕ} (g : Fin (a + b) → EReal) (h0 : ∀ i : Fin b, g (Fin.natAdd a i) = 0) :
    ∑ k, g k = ∑ k : Fin a, g (Fin.castAdd b k) := by
  rw [Fin.sum_univ_add, Finset.sum_eq_zero (fun i _ => h0 i), add_zero]

/-! ## The layers -/

section Layers

variable (Wc : Fin 256 → Fin 128 → EReal) (bc : Fin 128 → EReal)
  (Wv : Fin 128 → Fin 128 → EReal) (bv : Fin 128 → EReal)
  (Wo : Fin 128 → Fin 128 → EReal) (bo : Fin 128 → EReal)
  (Wr : Fin 256 → Fin 2048 → EReal) (bd : Fin 2048 → EReal)

/-- The encoder with its bias `b` given: `max (a·We + b) 0`, feature `j`. -/
def enc (a : Fin 2048 → EReal) (We : Fin 2048 → Fin 256 → EReal) (b : Fin 256 → EReal) (j : Fin 256) : EReal :=
  max ((∑ k, a k * We k j) + b j) 0

/-- The second encoder: `max (f·Wc + bc) 0`, unit `q`. -/
def hidden (f : Fin 256 → EReal) (q : Fin 128) : EReal :=
  max ((∑ j, f j * Wc j q) + bc q) 0

/-- The value projection, `Wv` indexed (contracted unit, result unit). -/
def value (f : Fin 256 → EReal) (q : Fin 128) : EReal :=
  (∑ p, hidden Wc bc f p * Wv p q) + bv q

/-- The output projection, `Wo` indexed (contracted unit, result unit). -/
def attn (f : Fin 256 → EReal) (q : Fin 128) : EReal :=
  (∑ p, value Wc bc Wv bv f p * Wo p q) + bo q

/-- The bottleneck of width `κ`: `max (attn·Wb) 0`. -/
def bott {κ : ℕ} (Wb : Fin 128 → Fin κ → EReal) (f : Fin 256 → EReal) (k : Fin κ) : EReal :=
  max (∑ p, attn Wc bc Wv bv Wo bo f p * Wb p k) 0

/-- The decoder at output column `n`: bottleneck·`Wd` + features·`Wr` + `bd`. -/
def decode {κ : ℕ} (Wb : Fin 128 → Fin κ → EReal) (Wd : Fin κ → Fin 2048 → EReal) (f : Fin 256 → EReal)
    (n : Fin 2048) : EReal :=
  ((∑ k, bott Wc bc Wv bv Wo bo Wb f k * Wd k n) + (∑ j, f j * Wr j n)) + bd n

/-- THE PADDING LAW. A bottleneck carried at width 128 = 32 + 96, whose matrices agree with the width-32 ones on the
    first 32 columns (of `Wb'`) and rows (of `Wd'`) and whose last 96 rows of `Wd'` are zero, decodes to the same
    value: each extra term has the factor `0`. -/
theorem decode_pad (Wb : Fin 128 → Fin 32 → EReal) (Wd : Fin 32 → Fin 2048 → EReal)
    (Wb' : Fin 128 → Fin (32 + 96) → EReal) (Wd' : Fin (32 + 96) → Fin 2048 → EReal)
    (hb : ∀ (p : Fin 128) (k : Fin 32), Wb' p (Fin.castAdd 96 k) = Wb p k)
    (hd : ∀ (k : Fin 32) (n : Fin 2048), Wd' (Fin.castAdd 96 k) n = Wd k n)
    (hd0 : ∀ (i : Fin 96) (n : Fin 2048), Wd' (Fin.natAdd 32 i) n = 0)
    (f : Fin 256 → EReal) (n : Fin 2048) :
    decode Wc bc Wv bv Wo bo Wr bd Wb' Wd' f n = decode Wc bc Wv bv Wo bo Wr bd Wb Wd f n := by
  unfold decode
  rw [sum_zero_tail _ (fun i => by rw [hd0, mul_zero])]
  refine congrArg (fun s => s + (∑ j, f j * Wr j n) + bd n) (Finset.sum_congr rfl fun k _ => ?_)
  rw [hd]
  unfold bott
  simp only [hb]

end Layers

end Cert.Net

end
-- ==== Proof.LibPlainDot.lean ====
/-
  A plain matrix product read at an entry, on the extended reals.

  For the dimension numbers of an `M×K` by `K×N` product (`DotDims.plain M K N`: contract the left operand's second
  axis with the right operand's first, no batch axis), the sum over the contraction index of the operands' products at
  output entry `(p, j)` is `∑ k, l (p, k) * r (k, j)`: the contraction index is its one coordinate `k`, the left
  operand is read at row `p`, column `k`, the right at row `k`, column `j`. From it: a vector-unit matrix product into
  the zero accumulator (`matmul_zero_apply`) and the host's `dot_general` (`dotGeneral_apply`) at `(p, j)`. A printed
  program's own record of these dimension numbers is `DotDims.plain` of its literal sizes by `rfl`.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {M K N : ℕ} {φ₁ φ₂ : FTy}

/-- Left operand, axis 0: the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- Right operand, axis 1: the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index at output `(p, j)` and contraction coordinate `k` is `(p, k)`. -/
theorem lhsIdx_plain (p : Fin M) (j : Fin N) (k : Fin K) :
    (DotDims.plain M K N).lhsIdx (ix2 p j) ((contrEquiv1 (DotDims.plain M K N) K rfl rfl).symm k) = ix2 p k := by
  have hk := contrEquiv1_symm_val (DotDims.plain M K N) K rfl rfl k
  exact funext fun a => Fin.ext (by
    match a with
    | ⟨0, _⟩ => exact lhs0 _ _
    | ⟨1, _⟩ => exact ((DotDims.plain M K N).lhsIdx_val_of_single rfl _ _).trans hk)

/-- The right operand's index at output `(p, j)` and contraction coordinate `k` is `(k, j)`. -/
theorem rhsIdx_plain (p : Fin M) (j : Fin N) (k : Fin K) :
    (DotDims.plain M K N).rhsIdx (ix2 p j) ((contrEquiv1 (DotDims.plain M K N) K rfl rfl).symm k) = ix2 k j := by
  have hk := contrEquiv1_symm_val (DotDims.plain M K N) K rfl rfl k
  exact funext fun a => Fin.ext (by
    match a with
    | ⟨0, _⟩ => exact ((DotDims.plain M K N).rhsIdx_val_of_single rfl _ _).trans hk
    | ⟨1, _⟩ => exact rhs1 _ _)

/-- The contraction's sum at output `(p, j)` is the sum over the contracted coordinate. -/
theorem sum_plain (l : (⟨2, ![M, K]⟩ : Shape).Idx → EReal) (r : (⟨2, ![K, N]⟩ : Shape).Idx → EReal) (p : Fin M) (j : Fin N) :
    ∑ q : (DotDims.plain M K N).contr.Idx,
        l ((DotDims.plain M K N).lhsIdx (ix2 p j) q) * r ((DotDims.plain M K N).rhsIdx (ix2 p j) q)
      = ∑ k : Fin K, l (ix2 p k) * r (ix2 k j) := by
  rw [← Equiv.sum_comp (contrEquiv1 (DotDims.plain M K N) K rfl rfl).symm]
  refine Finset.sum_congr rfl fun k _ => ?_
  rw [lhsIdx_plain, rhsIdx_plain]

/-- A matrix product on the vector unit into the zero accumulator, at entry `(p, j)`. -/
theorem matmul_zero_apply (prec : Option ContractPrecision) (l : FVec Ideal ⟨2, ![M, K]⟩ φ₁) (r : FVec Ideal ⟨2, ![K, N]⟩ φ₂)
    (p : Fin M) (j : Fin N) :
    FloatOps.matmul (DotDims.plain M K N) prec l r (constant ⟨2, ![M, N]⟩ .f32 0x00000000#32) (ix2 p j)
      = ∑ k : Fin K, l (ix2 p k) * r (ix2 k j) := by
  rw [Ideal.matmul_constant_zero_apply]
  exact sum_plain l r p j

/-- The host's `dot_general` at entry `(p, j)`, whatever its schedule. -/
theorem dotGeneral_apply (prec : Option ContractPrecision) (sched : HostSchedule) (l : FVec Ideal ⟨2, ![M, K]⟩ φ₁)
    (r : FVec Ideal ⟨2, ![K, N]⟩ φ₂) (p : Fin M) (j : Fin N) :
    FloatOps.dotGeneral (DotDims.plain M K N) prec sched l r (ix2 p j) = ∑ k : Fin K, l (ix2 p k) * r (ix2 k j) := by
  rw [Ideal.dotGeneral_apply]
  exact sum_plain l r p j

end Cert.Lib.PlainDot

end
-- ==== Proof.KerPayload.lean ====
/-
  The kernel body's arithmetic at one entry of its output block, on the extended reals.

  The body loads a block of 512 input rows and the twelve resident operands, and stores ONE value: entry `(p, n)` of
  the stored block depends on input row `p` only. Read at that entry, each matrix product into a zero accumulator is
  the sum over its contracted coordinate (the products' dimension numbers are the plain `M×K` by `K×N` ones), a
  change of float format is the identity, a `[1, b]` bias row broadcast down the rows reads its entry of the column,
  and the rectifier is `max · 0`. So the entry is the network of `Cert.Net` — bottleneck carried at width 128 —
  applied to row `p`, with the encoder's bias row taken as the body finds it.
-/
import proofs.«151392_j34711925686336_2_alg».proof.Proof.Gen.KernelIdeal.Skeleton
import proofs.«151392_j34711925686336_2_alg».proof.Proof.Net
import proofs.«151392_j34711925686336_2_alg».proof.Proof.LibPlainDot
import Idealize.ShloMosaic.Lib.ValueIdx
import Idealize.ShloMosaic.Lib.ValueLayout
import Idealize.ShloMosaic.PureOps.Ideal.Laws

noncomputable section

open scoped BigOperators

namespace Cert.KernelIdeal.Payload

open Idealize.ShloMosaic Idealize.ShloMosaic.ValueIdx Cert.KernelIdeal Cert.KernelIdeal.Gen

/-! ## The products' dimension numbers are the plain ones -/

theorem dims_enc : dot_S512x2048_S2048x256_S512x256_1_0_0_1_n_n = DotDims.plain 512 2048 256 := rfl
theorem dims_hidden : dot_S512x256_S256x128_S512x128_1_0_0_1_n_n = DotDims.plain 512 256 128 := rfl
theorem dims_square : dot_S512x128_S128x128_S512x128_1_0_0_1_n_n = DotDims.plain 512 128 128 := rfl
theorem dims_dec : dot_S512x128_S128x2048_S512x2048_1_0_0_1_n_n = DotDims.plain 512 128 2048 := rfl
theorem dims_res : dot_S512x256_S256x2048_S512x2048_1_0_0_1_n_n = DotDims.plain 512 256 2048 := rfl

/-- The f32 zero word is the extended real 0. -/
theorem zero_word : (FloatOps.ofBits (F := Ideal) .f32 0x00000000#32 : EReal) = 0 := Ideal.ofBits_zero_f32

/-! ## The three payloads at an entry -/

/-- The 256 features of row `p`: `max (row·We + b) 0`, with `b` the bias row as loaded. -/
theorem features_apply (v0 : Vec Ideal S512x2048 .f32) (v2 : Vec Ideal S2048x256 .bf16) (v5 : Vec Ideal S1x256 .f32)
    (p : Fin 512) (j : Fin 256) :
    k0_pay2 (F := Ideal) v0 v2 v5 (ix2 p j)
      = Cert.Net.enc (fun k => v0 (ix2 p k)) (fun k j => v2 (ix2 k j)) (fun j => v5 (ix2 (0 : Fin 1) j)) j := by
  unfold k0_pay2 Cert.Net.enc
  simp only [shapeCast_self]
  simp only [truncf_apply, maximumf_apply, addf_apply, broadcast_apply, matmul, dims_enc,
    Cert.Lib.PlainDot.matmul_zero_apply, broadcastTo_1b_ab_apply, zero_word]

/-- The output projection's product (its bias not yet added) for row `p`, unit `q`: the value projection of the
    hidden layer of the row's features, times the output matrix. -/
theorem attnProduct_apply (v0 : Vec Ideal S512x2048 .f32) (v2 : Vec Ideal S2048x256 .bf16) (v5 : Vec Ideal S1x256 .f32)
    (v12 : Vec Ideal S256x128 .bf16) (v15 : Vec Ideal S1x128 .f32) (v22 : Vec Ideal S128x128 .bf16)
    (v25 : Vec Ideal S1x128 .f32) (v30 : Vec Ideal S128x128 .bf16) (p : Fin 512) (q : Fin 128) :
    k0_pay3 (F := Ideal) v0 v2 v5 v12 v15 v22 v25 v30 (ix2 p q)
      = ∑ u : Fin 128, Cert.Net.value (fun j q => v12 (ix2 j q)) (fun q => v15 (ix2 (0 : Fin 1) q))
            (fun a b => v22 (ix2 a b)) (fun q => v25 (ix2 (0 : Fin 1) q))
            (fun j => k0_pay2 (F := Ideal) v0 v2 v5 (ix2 p j)) u * v30 (ix2 u q) := by
  unfold k0_pay3 Cert.Net.value Cert.Net.hidden
  simp only [shapeCast_self]
  simp only [truncf_apply, maximumf_apply, addf_apply, broadcast_apply, matmul, dims_hidden, dims_square,
    Cert.Lib.PlainDot.matmul_zero_apply, broadcastTo_1b_ab_apply, zero_word]

/-- The stored value at `(p, n)` from the features `v11`, the output projection's product `v32` and its bias row
    `v34`: bottleneck (width 128) times the decoder matrix, plus features times the residual matrix, plus the bias. -/
theorem stored_apply (v11 : FVec Ideal S512x256 .bf16) (v32 : FVec Ideal S512x128 .f32) (v34 : FVec Ideal S1x128 .f32)
    (v38 : Vec Ideal S128x128 .bf16) (v44 : Vec Ideal S128x2048 .bf16) (v47 : Vec Ideal S256x2048 .bf16)
    (v51 : Vec Ideal S1x2048 .f32) (p : Fin 512) (n : Fin 2048) :
    k0_pay1 (F := Ideal) v11 v32 v34 v38 v44 v47 v51 (ix2 p n)
      = ((∑ k : Fin 128, max (∑ u : Fin 128, (v32 (ix2 p u) + v34 (ix2 (0 : Fin 1) u)) * v38 (ix2 u k)) 0 * v44 (ix2 k n))
          + (∑ j : Fin 256, v11 (ix2 p j) * v47 (ix2 j n))) + v51 (ix2 (0 : Fin 1) n) := by
  unfold k0_pay1
  simp only [shapeCast_self]
  simp only [truncf_apply, maximumf_apply, addf_apply, broadcast_apply, matmul, dims_square, dims_dec, dims_res,
    Cert.Lib.PlainDot.matmul_zero_apply, broadcastTo_1b_ab_apply, zero_word]

/-! ## The whole body at an entry -/

/-- ENTRY `(p, n)` OF THE STORED BLOCK is the network applied to input row `p` of the loaded block, the bottleneck at
    width 128, every matrix and bias row as loaded. -/
theorem block_apply (x0 : Vec Ideal S512x2048 .f32) (x1 : Vec Ideal S2048x256 .bf16) (x2 : Vec Ideal S1x256 .f32)
    (x3 : Vec Ideal S256x128 .bf16) (x4 : Vec Ideal S1x128 .f32) (x5 : Vec Ideal S128x128 .bf16)
    (x6 : Vec Ideal S1x128 .f32) (x7 : Vec Ideal S128x128 .bf16) (x8 : Vec Ideal S1x128 .f32)
    (x9 : Vec Ideal S128x128 .bf16) (x10 : Vec Ideal S128x2048 .bf16) (x11 : Vec Ideal S1x2048 .f32)
    (x12 : Vec Ideal S256x2048 .bf16) (p : Fin 512) (n : Fin 2048) :
    k0_pay1 (F := Ideal) (k0_pay2 x0 x1 x2) (k0_pay3 x0 x1 x2 x3 x4 x5 x6 x7) (k0_pay4 x8) x9 x10 x12 x11 (ix2 p n)
      = Cert.Net.decode (fun j q => x3 (ix2 j q)) (fun q => x4 (ix2 (0 : Fin 1) q)) (fun a b => x5 (ix2 a b))
          (fun q => x6 (ix2 (0 : Fin 1) q)) (fun a b => x7 (ix2 a b)) (fun q => x8 (ix2 (0 : Fin 1) q))
          (fun j n => x12 (ix2 j n)) (fun n => x11 (ix2 (0 : Fin 1) n))
          (fun a (k : Fin 128) => x9 (ix2 a k)) (fun (k : Fin 128) n => x10 (ix2 k n))
          (Cert.Net.enc (fun k => x0 (ix2 p k)) (fun k j => x1 (ix2 k j)) (fun j => x2 (ix2 (0 : Fin 1) j))) n := by
  rw [stored_apply]
  unfold Cert.Net.decode Cert.Net.bott Cert.Net.attn
  simp only [attnProduct_apply, features_apply]
  unfold k0_pay4
  simp only [shapeCast_self]

end Cert.KernelIdeal.Payload

end
-- ==== Proof.KerHost.lean ====
/-
  What each operand of the kernel launch holds when the region is entered, read at an entry, on the extended reals.

  Before the launch the host prepares the operands from the thirteen argument arrays: the matrices are converted to a
  narrower float format (the identity on extended reals); the two square projection matrices are transposed first; each
  bias vector `[d]` is viewed as one row `[1, d]`; the bottleneck matrix `[128, 32]` is padded with 96 zero columns and
  the decoder matrix `[32, 2048]` with 96 zero rows (the padding value is the integer 0 converted, the real 0); and
  the encoder's bias is FOLDED: the decoder bias `bd`, as one row, is multiplied into the encoder matrix and the
  product subtracted, `be - bd·We`, a vector of 256 entries viewed as one row. Each lemma below reads one of these
  operands at an entry as the argument arrays at entries.
-/
import proofs.«151392_j34711925686336_2_alg».proof.Proof.Gen.KernelIdeal.Frame
import proofs.«151392_j34711925686336_2_alg».proof.Proof.LibPlainDot
import Idealize.ShloMosaic.Lib.StableHlo.Run
import Idealize.ShloMosaic.Lib.ValueIdx
import Idealize.ShloMosaic.Lib.ValueLayout
import Idealize.ShloMosaic.Lib.KernelVsHost
import Idealize.ShloMosaic.PureOps.Ideal.Laws

noncomputable section

open scoped BigOperators

namespace Cert.KernelIdeal.HostSide

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ) (c : Dev nD)

/-- Argument 0 as launched: the input rows. -/
abbrev a0 : S131072x2048.Idx → EReal := m ((c : Thread nD τ).loc main_arg0)
/-- Argument 1 as launched: the encoder matrix. -/
abbrev a1 : S2048x256.Idx → EReal := m ((c : Thread nD τ).loc main_arg1)
/-- Argument 2 as launched: the encoder bias. -/
abbrev a2 : S256.Idx → EReal := m ((c : Thread nD τ).loc main_arg2)
/-- Argument 3 as launched: the second encoder's matrix. -/
abbrev a3 : S256x128.Idx → EReal := m ((c : Thread nD τ).loc main_arg3)
/-- Argument 4 as launched: the second encoder's bias. -/
abbrev a4 : S128.Idx → EReal := m ((c : Thread nD τ).loc main_arg4)
/-- Argument 5 as launched: the value projection's matrix. -/
abbrev a5 : S128x128.Idx → EReal := m ((c : Thread nD τ).loc main_arg5)
/-- Argument 6 as launched: the value projection's bias. -/
abbrev a6 : S128.Idx → EReal := m ((c : Thread nD τ).loc main_arg6)
/-- Argument 7 as launched: the output projection's matrix. -/
abbrev a7 : S128x128.Idx → EReal := m ((c : Thread nD τ).loc main_arg7)
/-- Argument 8 as launched: the output projection's bias. -/
abbrev a8 : S128.Idx → EReal := m ((c : Thread nD τ).loc main_arg8)
/-- Argument 9 as launched: the bottleneck matrix. -/
abbrev a9 : S128x32.Idx → EReal := m ((c : Thread nD τ).loc main_arg9)
/-- Argument 10 as launched: the decoder matrix. -/
abbrev a10 : S32x2048.Idx → EReal := m ((c : Thread nD τ).loc main_arg10)
/-- Argument 11 as launched: the decoder bias. -/
abbrev a11 : S2048.Idx → EReal := m ((c : Thread nD τ).loc main_arg11)
/-- Argument 12 as launched: the residual matrix. -/
abbrev a12 : S256x2048.Idx → EReal := m ((c : Thread nD τ).loc main_arg12)

/-- Open `V` at a buffer: the host operations that wrote it, composed, over the argument arrays. -/
local macro "open_stage" : tactic =>
  `(tactic| (dsimp only [Gen.V]
             simp only [Gen.hostOps0, Gen.hostOps0_1, Gen.hostOps0_2, Gen.hostOps0_3, Gen.hostOps0_4, List.flatten_cons,
               List.flatten_nil, List.append_nil, List.cons_append, List.nil_append]
             after_results_simp))

/-- The host product that folds the decoder bias into the encoder's has the plain `1×2048` by `2048×256` dimension numbers. -/
theorem dims_fold : dot_S1x2048_S2048x256_S1x256_1_0_0_1_n_n = DotDims.plain 1 2048 256 := rfl

/-! ## Matrices converted in place -/

/-- The encoder matrix. -/
theorem stage_We (k : Fin 2048) (j : Fin 256) : V m c main_v5 (ix2 k j) = a1 m c (ix2 k j) := by
  open_stage
  rfl

/-- The second encoder's matrix. -/
theorem stage_Wc (j : Fin 256) (q : Fin 128) : V m c main_v6 (ix2 j q) = a3 m c (ix2 j q) := by
  open_stage
  rfl

/-- The residual matrix. -/
theorem stage_Wr (j : Fin 256) (n : Fin 2048) : V m c main_v15 (ix2 j n) = a12 m c (ix2 j n) := by
  open_stage
  rfl

/-! ## The projection matrices, transposed -/

/-- The value projection's matrix: entry `(a, b)` of the operand is entry `(b, a)` of the argument. -/
theorem stage_Wv (a b : Fin 128) : V m c main_v8 (ix2 a b) = a5 m c (ix2 b a) := by
  open_stage
  exact transpose_ix2_apply _ _ a b

/-- The output projection's matrix, likewise. -/
theorem stage_Wo (a b : Fin 128) : V m c main_v10 (ix2 a b) = a7 m c (ix2 b a) := by
  open_stage
  exact transpose_ix2_apply _ _ a b

/-! ## Bias vectors as one row -/

/-- The second encoder's bias. -/
theorem stage_bc (u : Fin 1) (q : Fin 128) : V m c main_v16 (ix2 u q) = a4 m c (ix1 q) := by
  open_stage
  exact shapeCast_a_1a_apply _ _ u q

/-- The value projection's bias. -/
theorem stage_bv (u : Fin 1) (q : Fin 128) : V m c main_v17 (ix2 u q) = a6 m c (ix1 q) := by
  open_stage
  exact shapeCast_a_1a_apply _ _ u q

/-- The output projection's bias. -/
theorem stage_bo (u : Fin 1) (q : Fin 128) : V m c main_v18 (ix2 u q) = a8 m c (ix1 q) := by
  open_stage
  exact shapeCast_a_1a_apply _ _ u q

/-- The decoder's bias. -/
theorem stage_bd (u : Fin 1) (n : Fin 2048) : V m c main_v19 (ix2 u n) = a11 m c (ix1 n) := by
  open_stage
  exact shapeCast_a_1a_apply _ _ u n

/-! ## The folded encoder bias -/

/-- Entry `j` of the encoder's bias row as the kernel finds it: `be j - ∑ k, bd k * We (k, j)`. -/
theorem stage_bias (u : Fin 1) (j : Fin 256) :
    V m c main_v4 (ix2 u j) = a2 m c (ix1 j) - ∑ k : Fin 2048, a11 m c (ix1 k) * a1 m c (ix2 k j) := by
  open_stage
  show shapeCast S1x256 _ _ (ix2 u j) = _
  rw [shapeCast_a_1a_apply, subf_apply]
  show _ - shapeCast S256 _ _ (ix1 j) = _
  rw [shapeCast_1a_a_apply]
  show _ - FloatOps.dotGeneral dot_S1x2048_S2048x256_S1x256_1_0_0_1_n_n none _ _ _ (ix2 (0 : Fin 1) j) = _
  rw [dims_fold, Cert.Lib.PlainDot.dotGeneral_apply]
  refine congrArg (fun s => a2 m c (ix1 j) - s) (Finset.sum_congr rfl fun k _ => ?_)
  exact congrArg (· * a1 m c (ix2 k j)) (shapeCast_a_1a_apply _ _ (0 : Fin 1) k)

/-! ## The padded matrices -/

/-- The bottleneck matrix inside its 32 columns. -/
theorem stage_Wb_in (p : Fin 128) (k : Fin 32) : V m c main_v12 (ix2 p (Fin.castAdd 96 k)) = a9 m c (ix2 p k) := by
  open_stage
  show pad S128x128 ![0, 0] ![0, 96] ![0, 0] (a9 m c) (sitofp (F := Ideal) .f32 (constantI S_ 32 0#32)) Facts₀.pads_S128x32_S128x128_000_0960 Facts₀.h_S_ (ix2 p (Fin.castAdd 96 k)) = _
  refine pad_apply_of_inside ![0, 0] ![0, 96] ![0, 0] (a9 m c) _ _ _ _ (ix2 p k) fun ax => ?_
  match ax with
  | ⟨0, _⟩ => show p.val = 0 + p.val * (0 + 1); omega
  | ⟨1, _⟩ => show k.val = 0 + k.val * (0 + 1); omega

/-- The decoder matrix inside its 32 rows. -/
theorem stage_Wd_in (k : Fin 32) (n : Fin 2048) : V m c main_v14 (ix2 (Fin.castAdd 96 k) n) = a10 m c (ix2 k n) := by
  open_stage
  show pad S128x2048 ![0, 0] ![96, 0] ![0, 0] (a10 m c) (sitofp (F := Ideal) .f32 (constantI S_ 32 0#32)) Facts₀.pads_S32x2048_S128x2048_0960_000 Facts₀.h_S_ (ix2 (Fin.castAdd 96 k) n) = _
  refine pad_apply_of_inside ![0, 0] ![96, 0] ![0, 0] (a10 m c) _ _ _ _ (ix2 k n) fun ax => ?_
  match ax with
  | ⟨0, _⟩ => show k.val = 0 + k.val * (0 + 1); omega
  | ⟨1, _⟩ => show n.val = 0 + n.val * (0 + 1); omega

/-- The decoder matrix's 96 extra rows are zero. -/
theorem stage_Wd_out (i : Fin 96) (n : Fin 2048) : V m c main_v14 (ix2 (Fin.natAdd 32 i) n) = (0 : EReal) := by
  open_stage
  show pad S128x2048 ![0, 0] ![96, 0] ![0, 0] (a10 m c) (sitofp (F := Ideal) .f32 (constantI S_ 32 0#32)) Facts₀.pads_S32x2048_S128x2048_0960_000 Facts₀.h_S_ (ix2 (Fin.natAdd 32 i) n) = (0 : EReal)
  refine (pad_apply_of_not_inside ![0, 0] ![96, 0] ![0, 0] (a10 m c) _ _ _ (ix2 (Fin.natAdd 32 i) n) (0 : Fin 2) ?_).trans ?_
  · intro h
    have h3 : (32 + i.val - 0) / (0 + 1) < 32 := h.2.2
    omega
  · exact sitofp_zero (φ := .f32)

end Cert.KernelIdeal.HostSide

end
-- ==== Proof.KerValue.lean ====
/-
  From blocks to the array: what the kernel's result array holds after the run, as one function of the arguments.

  The launch has 256 points. At point `t` the output window's block is rows `512 t … 512 t + 511` of the result
  (all 2048 columns), the first input window's block is the same rows of the input, and every other window holds its
  WHOLE operand at every point (its index map is constant; decided once over the grid). The body's stored value at
  entry `(p, n)` of the block depends on input row `p` of the block only, so it is a function `outRow` of the ARRAY
  row `512 t + p`: what point `t` writes back is block `t` of one whole-array function `outArr`. The 256 blocks tile
  the result (row `r` lies in block `r / 512`), so the result ends holding `outArr`.

  `outRow` is the network of `Cert.Net` on the argument arrays, with the two things the kernel does its own way
  left as it does them: the encoder's bias is the folded one, `be - bd·We`, and the bottleneck is carried at width
  128 through the padded matrices as the region finds them.
-/
import proofs.«151392_j34711925686336_2_alg».proof.Proof.Gen.KernelIdeal.Value
import proofs.«151392_j34711925686336_2_alg».proof.Proof.KerPayload
import proofs.«151392_j34711925686336_2_alg».proof.Proof.KerHost
import proofs.«151392_j34711925686336_2_alg».proof.Proof.Net

set_option maxRecDepth 16384

noncomputable section

open scoped BigOperators

namespace Cert.KernelIdeal.Whole

open Cert.KernelIdeal Cert.KernelIdeal.Gen Cert.KernelIdeal.HostSide Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The windows' index maps -/

theorem hz : (![0, 0] : Fin 2 → Nat) = fun _ => 0 := funext fun a => by fin_cases a <;> rfl

/-- Decided over the 256 points: the input rows' window and the output window sit at block `(t, 0)`; every other
    window at block `(0, 0)`. -/
theorem idx_facts : ∀ t : Fin cfg0.N, win0_0.index t (0 : Fin 2) = t.val ∧ win0_0.index t (1 : Fin 2) = 0
    ∧ win0_13.index t (0 : Fin 2) = t.val ∧ win0_13.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 2) = 0 ∧ win0_12.index t (1 : Fin 2) = 0 :=
  (by decide +kernel : ∀ t : Fin grid0.N, _)

/-- A point's position is below 256. -/
theorem pt_lt (t : Fin cfg0.N) : t.val < 256 := Nat.lt_of_lt_of_eq t.isLt N_0

/-- Row `p` of point `t`'s block is row `512 t + p` of the array. -/
def rowOf (t : Fin cfg0.N) (p : Fin 512) : Fin 131072 := ⟨t.val * 512 + p.val, by have := pt_lt t; omega⟩

/-! ## Each input window's block, read at an entry -/

/-- The input rows' window at point `t` holds rows `512 t …` of the input. -/
theorem blk0 (c : Dev nD) (t : Fin cfg0.N) (p : Fin 512) (k : Fin 2048) :
    iblk m c 0 t (ix2 p k) = a0 m c (ix2 (rowOf t p) k) := by
  show V m c main_arg0 (((cfg0.win 0).blk t).view.emb (ix2 p k)) = a0 m c (ix2 (rowOf t p) k)
  rw [V_main_arg0]
  refine congrArg (a0 m c) (funext fun ax => Fin.ext ?_)
  have h := idx_facts t
  match ax with
  | ⟨0, _⟩ => show win0_0.index t (0 : Fin 2) * 512 + 1 * p.val = t.val * 512 + p.val; rw [h.1]; omega
  | ⟨1, _⟩ => show win0_0.index t (1 : Fin 2) * 2048 + 1 * k.val = k.val; rw [h.2.1]; omega

/-- Window 1 holds its whole array at every point. -/
theorem blk1 (c : Dev nD) (t : Fin cfg0.N) (a : Fin 2048) (b : Fin 256) :
    iblk m c 1 t (ix2 a b) = V m c main_v5 (ix2 a b) := by
  show V m c main_v5 (((cfg0.win 1).blk t).view.emb (ix2 a b)) = V m c main_v5 (ix2 a b)
  refine congrArg (V m c main_v5) (funext fun ax => Fin.ext ?_)
  have h := idx_facts t
  match ax with
  | ⟨0, _⟩ => show win0_1.index t (0 : Fin 2) * 2048 + 1 * a.val = a.val; rw [h.2.2.2.2.1]; omega
  | ⟨1, _⟩ => show win0_1.index t (1 : Fin 2) * 256 + 1 * b.val = b.val; rw [h.2.2.2.2.2.1]; omega

/-- Window 2 holds its whole array at every point. -/
theorem blk2 (c : Dev nD) (t : Fin cfg0.N) (a : Fin 1) (b : Fin 256) :
    iblk m c 2 t (ix2 a b) = V m c main_v4 (ix2 a b) := by
  show V m c main_v4 (((cfg0.win 2).blk t).view.emb (ix2 a b)) = V m c main_v4 (ix2 a b)
  refine congrArg (V m c main_v4) (funext fun ax => Fin.ext ?_)
  have h := idx_facts t
  match ax with
  | ⟨0, _⟩ => show win0_2.index t (0 : Fin 2) * 1 + 1 * a.val = a.val; rw [h.2.2.2.2.2.2.1]; omega
  | ⟨1, _⟩ => show win0_2.index t (1 : Fin 2) * 256 + 1 * b.val = b.val; rw [h.2.2.2.2.2.2.2.1]; omega

/-- Window 3 holds its whole array at every point. -/
theorem blk3 (c : Dev nD) (t : Fin cfg0.N) (a : Fin 256) (b : Fin 128) :
    iblk m c 3 t (ix2 a b) = V m c main_v6 (ix2 a b) := by
  show V m c main_v6 (((cfg0.win 3).blk t).view.emb (ix2 a b)) = V m c main_v6 (ix2 a b)
  refine congrArg (V m c main_v6) (funext fun ax => Fin.ext ?_)
  have h := idx_facts t
  match ax with
  | ⟨0, _⟩ => show win0_3.index t (0 : Fin 2) * 256 + 1 * a.val = a.val; rw [h.2.2.2.2.2.2.2.2.1]; omega
  | ⟨1, _⟩ => show win0_3.index t (1 : Fin 2) * 128 + 1 * b.val = b.val; rw [h.2.2.2.2.2.2.2.2.2.1]; omega

/-- Window 4 holds its whole array at every point. -/
theorem blk4 (c : Dev nD) (t : Fin cfg0.N) (a : Fin 1) (b : Fin 128) :
    iblk m c 4 t (ix2 a b) = V m c main_v16 (ix2 a b) := by
  show V m c main_v16 (((cfg0.win 4).blk t).view.emb (ix2 a b)) = V m c main_v16 (ix2 a b)
  refine congrArg (V m c main_v16) (funext fun ax => Fin.ext ?_)
  have h := idx_facts t
  match ax with
  | ⟨0, _⟩ => show win0_4.index t (0 : Fin 2) * 1 + 1 * a.val = a.val; rw [h.2.2.2.2.2.2.2.2.2.2.1]; omega
  | ⟨1, _⟩ => show win0_4.index t (1 : Fin 2) * 128 + 1 * b.val = b.val; rw [h.2.2.2.2.2.2.2.2.2.2.2.1]; omega

/-- Window 5 holds its whole array at every point. -/
theorem blk5 (c : Dev nD) (t : Fin cfg0.N) (a : Fin 128) (b : Fin 128) :
    iblk m c 5 t (ix2 a b) = V m c main_v8 (ix2 a b) := by
  show V m c main_v8 (((cfg0.win 5).blk t).view.emb (ix2 a b)) = V m c main_v8 (ix2 a b)
  refine congrArg (V m c main_v8) (funext fun ax => Fin.ext ?_)
  have h := idx_facts t
  match ax with
  | ⟨0, _⟩ => show win0_5.index t (0 : Fin 2) * 128 + 1 * a.val = a.val; rw [h.2.2.2.2.2.2.2.2.2.2.2.2.1]; omega
  | ⟨1, _⟩ => show win0_5.index t (1 : Fin 2) * 128 + 1 * b.val = b.val; rw [h.2.2.2.2.2.2.2.2.2.2.2.2.2.1]; omega

/-- Window 6 holds its whole array at every point. -/
theorem blk6 (c : Dev nD) (t : Fin cfg0.N) (a : Fin 1) (b : Fin 128) :
    iblk m c 6 t (ix2 a b) = V m c main_v17 (ix2 a b) := by
  show V m c main_v17 (((cfg0.win 6).blk t).view.emb (ix2 a b)) = V m c main_v17 (ix2 a b)
  refine congrArg (V m c main_v17) (funext fun ax => Fin.ext ?_)
  have h := idx_facts t
  match ax with
  | ⟨0, _⟩ => show win0_6.index t (0 : Fin 2) * 1 + 1 * a.val = a.val; rw [h.2.2.2.2.2.2.2.2.2.2.2.2.2.2.1]; omega
  | ⟨1, _⟩ => show win0_6.index t (1 : Fin 2) * 128 + 1 * b.val = b.val; rw [h.2.2.2.2.2.2.2.2.2.2.2.2.2.2.2.1]; omega

/-- Window 7 holds its whole array at every point. -/
theorem blk7 (c : Dev nD) (t : Fin cfg0.N) (a : Fin 128) (b : Fin 128) :
    iblk m c 7 t (ix2 a b) = V m c main_v10 (ix2 a b) := by
  show V m c main_v10 (((cfg0.win 7).blk t).view.emb (ix2 a b)) = V m c main_v10 (ix2 a b)
  refine congrArg (V m c main_v10) (funext fun ax => Fin.ext ?_)
  have h := idx_facts t
  match ax with
  | ⟨0, _⟩ => show win0_7.index t (0 : Fin 2) * 128 + 1 * a.val = a.val; rw [h.2.2.2.2.2.2.2.2.2.2.2.2.2.2.2.2.1]; omega
  | ⟨1, _⟩ => show win0_7.index t (1 : Fin 2) * 128 + 1 * b.val = b.val; rw [h.2.2.2.2.2.2.2.2.2.2.2.2.2.2.2.2.2.1]; omega

/-- Window 8 holds its whole array at every point. -/
theorem blk8 (c : Dev nD) (t : Fin cfg0.N) (a : Fin 1) (b : Fin 128) :
    iblk m c 8 t (ix2 a b) = V m c main_v18 (ix2 a b) := by
  show V m c main_v18 (((cfg0.win 8).blk t).view.emb (ix2 a b)) = V m c main_v18 (ix2 a b)
  refine congrArg (V m c main_v18) (funext fun ax => Fin.ext ?_)
  have h := idx_facts t
  match ax with
  | ⟨0, _⟩ => show win0_8.index t (0 : Fin 2) * 1 + 1 * a.val = a.val; rw [h.2.2.2.2.2.2.2.2.2.2.2.2.2.2.2.2.2.2.1]; omega
  | ⟨1, _⟩ => show win0_8.index t (1 : Fin 2) * 128 + 1 * b.val = b.val; rw [h.2.2.2.2.2.2.2.2.2.2.2.2.2.2.2.2.2.2.2.1]; omega

/-- Window 9 holds its whole array at every point. -/
theorem blk9 (c : Dev nD) (t : Fin cfg0.N) (a : Fin 128) (b : Fin 128) :
    iblk m c 9 t (ix2 a b) = V m c main_v12 (ix2 a b) := by
  show V m c main_v12 (((cfg0.win 9).blk t).view.emb (ix2 a b)) = V m c main_v12 (ix2 a b)
  refine congrArg (V m c main_v12) (funext fun ax => Fin.ext ?_)
  have h := idx_facts t
  match ax with
  | ⟨0, _⟩ => show win0_9.index t (0 : Fin 2) * 128 + 1 * a.val = a.val; rw [h.2.2.2.2.2.2.2.2.2.2.2.2.2.2.2.2.2.2.2.2.1]; omega
  | ⟨1, _⟩ => show win0_9.index t (1 : Fin 2) * 128 + 1 * b.val = b.val; rw [h.2.2.2.2.2.2.2.2.2.2.2.2.2.2.2.2.2.2.2.2.2.1]; omega

/-- Window 10 holds its whole array at every point. -/
theorem blk10 (c : Dev nD) (t : Fin cfg0.N) (a : Fin 128) (b : Fin 2048) :
    iblk m c 10 t (ix2 a b) = V m c main_v14 (ix2 a b) := by
  show V m c main_v14 (((cfg0.win 10).blk t).view.emb (ix2 a b)) = V m c main_v14 (ix2 a b)
  refine congrArg (V m c main_v14) (funext fun ax => Fin.ext ?_)
  have h := idx_facts t
  match ax with
  | ⟨0, _⟩ => show win0_10.index t (0 : Fin 2) * 128 + 1 * a.val = a.val; rw [h.2.2.2.2.2.2.2.2.2.2.2.2.2.2.2.2.2.2.2.2.2.2.1]; omega
  | ⟨1, _⟩ => show win0_10.index t (1 : Fin 2) * 2048 + 1 * b.val = b.val; rw [h.2.2.2.2.2.2.2.2.2.2.2.2.2.2.2.2.2.2.2.2.2.2.2.1]; omega

/-- Window 11 holds its whole array at every point. -/
theorem blk11 (c : Dev nD) (t : Fin cfg0.N) (a : Fin 1) (b : Fin 2048) :
    iblk m c 11 t (ix2 a b) = V m c main_v19 (ix2 a b) := by
  show V m c main_v19 (((cfg0.win 11).blk t).view.emb (ix2 a b)) = V m c main_v19 (ix2 a b)
  refine congrArg (V m c main_v19) (funext fun ax => Fin.ext ?_)
  have h := idx_facts t
  match ax with
  | ⟨0, _⟩ => show win0_11.index t (0 : Fin 2) * 1 + 1 * a.val = a.val; rw [h.2.2.2.2.2.2.2.2.2.2.2.2.2.2.2.2.2.2.2.2.2.2.2.2.1]; omega
  | ⟨1, _⟩ => show win0_11.index t (1 : Fin 2) * 2048 + 1 * b.val = b.val; rw [h.2.2.2.2.2.2.2.2.2.2.2.2.2.2.2.2.2.2.2.2.2.2.2.2.2.1]; omega

/-- Window 12 holds its whole array at every point. -/
theorem blk12 (c : Dev nD) (t : Fin cfg0.N) (a : Fin 256) (b : Fin 2048) :
    iblk m c 12 t (ix2 a b) = V m c main_v15 (ix2 a b) := by
  show V m c main_v15 (((cfg0.win 12).blk t).view.emb (ix2 a b)) = V m c main_v15 (ix2 a b)
  refine congrArg (V m c main_v15) (funext fun ax => Fin.ext ?_)
  have h := idx_facts t
  match ax with
  | ⟨0, _⟩ => show win0_12.index t (0 : Fin 2) * 256 + 1 * a.val = a.val; rw [h.2.2.2.2.2.2.2.2.2.2.2.2.2.2.2.2.2.2.2.2.2.2.2.2.2.2.1]; omega
  | ⟨1, _⟩ => show win0_12.index t (1 : Fin 2) * 2048 + 1 * b.val = b.val; rw [h.2.2.2.2.2.2.2.2.2.2.2.2.2.2.2.2.2.2.2.2.2.2.2.2.2.2.2]; omega

/-! ## The result, row by row -/

/-- The padded bottleneck matrix as the region finds it. -/
abbrev wbPad (c : Dev nD) : S128x128.Idx → EReal := V m c main_v12
/-- The padded decoder matrix as the region finds it. -/
abbrev wdPad (c : Dev nD) : S128x2048.Idx → EReal := V m c main_v14

/-- Entry `(r, n)` of the result: the network on input row `r`, with the folded encoder bias and the width-128
    bottleneck. The two projection matrices enter transposed. -/
def outRow (c : Dev nD) (r : Fin 131072) (n : Fin 2048) : EReal :=
  Cert.Net.decode (fun j q => a3 m c (ix2 j q)) (fun q => a4 m c (ix1 q)) (fun a b => a5 m c (ix2 b a))
    (fun q => a6 m c (ix1 q)) (fun a b => a7 m c (ix2 b a)) (fun q => a8 m c (ix1 q))
    (fun j n => a12 m c (ix2 j n)) (fun n => a11 m c (ix1 n))
    (fun a (k : Fin 128) => wbPad m c (ix2 a k)) (fun (k : Fin 128) n => wdPad m c (ix2 k n))
    (Cert.Net.enc (fun k => a0 m c (ix2 r k)) (fun k j => a1 m c (ix2 k j))
      (fun j => a2 m c (ix1 j) - ∑ k : Fin 2048, a11 m c (ix1 k) * a1 m c (ix2 k j))) n

/-- The result array as one function of the arguments. -/
def outArr (c : Dev nD) : S131072x2048.Idx → EReal := fun i => outRow m c (i 0) (i 1)

/-! ## What a point writes back -/

/-- WHAT POINT `t` WRITES BACK is block `t` of `outArr`. -/
theorem flushed_eq (c : Dev nD) (t : Fin cfg0.N) :
    (dats m 0 c).flushed 13 t = ((cfg0.win 13).blk t).view.read (Elt Ideal) (outArr m c) := by
  rw [Value.flushed13]
  unfold out0_13
  rw [View.canon_unit_zero hz]
  simp only [View.ld_unit_zero (S := S512x2048) hz, View.ld_unit_zero (S := S2048x256) hz, View.ld_unit_zero (S := S1x256) hz,
    View.ld_unit_zero (S := S256x128) hz, View.ld_unit_zero (S := S1x128) hz, View.ld_unit_zero (S := S128x128) hz,
    View.ld_unit_zero (S := S128x2048) hz, View.ld_unit_zero (S := S256x2048) hz, View.ld_unit_zero (S := S1x2048) hz]
  refine funext fun (y : S512x2048.Idx) => ?_
  obtain ⟨p, n, rfl⟩ : ∃ (p : Fin 512) (n : Fin 2048), y = ix2 p n := ⟨y 0, y 1, eq_ix2 y⟩
  have e13 : ((cfg0.win 13).blk t).view.emb (ix2 p n) = ix2 (rowOf t p) n := by
    have h := idx_facts t
    refine funext fun ax => Fin.ext ?_
    match ax with
    | ⟨0, _⟩ => show win0_13.index t (0 : Fin 2) * 512 + 1 * p.val = t.val * 512 + p.val; rw [h.2.2.1]; omega
    | ⟨1, _⟩ => show win0_13.index t (1 : Fin 2) * 2048 + 1 * n.val = n.val; rw [h.2.2.2.1]; omega
  show k0_pay1 (k0_pay2 (iblk m c 0 t) (iblk m c 1 t) (iblk m c 2 t))
      (k0_pay3 (iblk m c 0 t) (iblk m c 1 t) (iblk m c 2 t) (iblk m c 3 t) (iblk m c 4 t) (iblk m c 5 t) (iblk m c 6 t) (iblk m c 7 t))
      (k0_pay4 (iblk m c 8 t)) (iblk m c 9 t) (iblk m c 10 t) (iblk m c 12 t) (iblk m c 11 t) (ix2 p n)
    = outArr m c (((cfg0.win 13).blk t).view.emb (ix2 p n))
  rw [e13]
  show _ = outRow m c (rowOf t p) n
  refine (Cert.KernelIdeal.Payload.block_apply (iblk m c 0 t) (iblk m c 1 t) (iblk m c 2 t) (iblk m c 3 t) (iblk m c 4 t)
    (iblk m c 5 t) (iblk m c 6 t) (iblk m c 7 t) (iblk m c 8 t) (iblk m c 9 t) (iblk m c 10 t) (iblk m c 11 t) (iblk m c 12 t) p n).trans ?_
  unfold outRow
  have r0 : (fun k => iblk m c 0 t (ix2 p k)) = fun k => a0 m c (ix2 (rowOf t p) k) := funext fun k => blk0 m c t p k
  have r1 : (fun k j => iblk m c 1 t (ix2 k j)) = fun k j => a1 m c (ix2 k j) :=
    funext fun k => funext fun j => (blk1 m c t k j).trans (stage_We m c k j)
  have r2 : (fun j => iblk m c 2 t (ix2 (0 : Fin 1) j))
      = fun j => a2 m c (ix1 j) - ∑ k : Fin 2048, a11 m c (ix1 k) * a1 m c (ix2 k j) :=
    funext fun j => (blk2 m c t 0 j).trans (stage_bias m c 0 j)
  have r3 : (fun j q => iblk m c 3 t (ix2 j q)) = fun j q => a3 m c (ix2 j q) :=
    funext fun j => funext fun q => (blk3 m c t j q).trans (stage_Wc m c j q)
  have r4 : (fun q => iblk m c 4 t (ix2 (0 : Fin 1) q)) = fun q => a4 m c (ix1 q) :=
    funext fun q => (blk4 m c t 0 q).trans (stage_bc m c 0 q)
  have r5 : (fun a b => iblk m c 5 t (ix2 a b)) = fun a b => a5 m c (ix2 b a) :=
    funext fun a => funext fun b => (blk5 m c t a b).trans (stage_Wv m c a b)
  have r6 : (fun q => iblk m c 6 t (ix2 (0 : Fin 1) q)) = fun q => a6 m c (ix1 q) :=
    funext fun q => (blk6 m c t 0 q).trans (stage_bv m c 0 q)
  have r7 : (fun a b => iblk m c 7 t (ix2 a b)) = fun a b => a7 m c (ix2 b a) :=
    funext fun a => funext fun b => (blk7 m c t a b).trans (stage_Wo m c a b)
  have r8 : (fun q => iblk m c 8 t (ix2 (0 : Fin 1) q)) = fun q => a8 m c (ix1 q) :=
    funext fun q => (blk8 m c t 0 q).trans (stage_bo m c 0 q)
  have r9 : (fun a (k : Fin 128) => iblk m c 9 t (ix2 a k)) = fun a (k : Fin 128) => wbPad m c (ix2 a k) :=
    funext fun a => funext fun k => blk9 m c t a k
  have r10 : (fun (k : Fin 128) n => iblk m c 10 t (ix2 k n)) = fun (k : Fin 128) n => wdPad m c (ix2 k n) :=
    funext fun k => funext fun n => blk10 m c t k n
  have r11 : (fun n => iblk m c 11 t (ix2 (0 : Fin 1) n)) = fun n => a11 m c (ix1 n) :=
    funext fun n => (blk11 m c t 0 n).trans (stage_bd m c 0 n)
  have r12 : (fun j n => iblk m c 12 t (ix2 j n)) = fun j n => a12 m c (ix2 j n) :=
    funext fun j => funext fun n => (blk12 m c t j n).trans (stage_Wr m c j n)
  rw [r0, r1, r2, r3, r4, r5, r6, r7, r8, r9, r10, r11, r12]

/-! ## The blocks tile the result -/

/-- An index is in point `t`'s block iff each coordinate is in the block's range on its axis. -/
theorem mem_blk (t : Fin cfg0.N) (i : S131072x2048.Idx) :
    i ∈ ((cfg0.win 13).blk t).view.set ↔ ∀ a : Fin 2, win0_13.index t a * S512x2048.size a ≤ (i a).val
      ∧ (i a).val < win0_13.index t a * S512x2048.size a + S512x2048.size a := by
  show i ∈ ((View.whole main_v20).slice (win0_13.rect t)).set ↔ _
  rw [View.set_slice_whole, Rect.mem_set_unit]
  exact Iff.rfl

/-- Every index of the result lies in the block of the point `row / 512`. -/
theorem cover (i : S131072x2048.Idx) :
    ∃ t : Fin cfg0.N, (cfg0.win 13).flush t = true ∧ i ∈ ((cfg0.win 13).blk t).view.set := by
  have hi0 : (i 0).val < 131072 := (i 0).isLt
  have hi1 : (i 1).val < 2048 := (i 1).isLt
  have hq : (i 0).val / 512 < cfg0.N := Nat.lt_of_lt_of_eq (by omega : (i 0).val / 512 < 256) N_0.symm
  refine ⟨⟨(i 0).val / 512, hq⟩, flush0_13 _, ?_⟩
  rw [mem_blk]
  have h := idx_facts ⟨(i 0).val / 512, hq⟩
  intro a
  match a with
  | ⟨0, _⟩ =>
    show win0_13.index ⟨(i 0).val / 512, hq⟩ (0 : Fin 2) * 512 ≤ (i 0).val
      ∧ (i 0).val < win0_13.index ⟨(i 0).val / 512, hq⟩ (0 : Fin 2) * 512 + 512
    rw [h.2.2.1]
    show (i 0).val / 512 * 512 ≤ (i 0).val ∧ (i 0).val < (i 0).val / 512 * 512 + 512
    omega
  | ⟨1, _⟩ =>
    show win0_13.index ⟨(i 0).val / 512, hq⟩ (1 : Fin 2) * 2048 ≤ (i 1).val
      ∧ (i 1).val < win0_13.index ⟨(i 0).val / 512, hq⟩ (1 : Fin 2) * 2048 + 2048
    rw [h.2.2.2.1]
    omega

/-- THE RESULT ARRAY after the run is `outArr`. -/
theorem final (c : Dev nD) : (dats m 0 c).arrAt 13 cfg0.N = outArr m c :=
  (dats m 0 c).arrAt_eq_of_cover 13 (outArr m c) (fun t _ => flushed_eq m c t) (cover)

/-! ## The run, read -/

/-- The kernel's run re-posted: the result array at `outArr`, the arguments unchanged. -/
theorem run : θ_run defs (onTc (τ := τ) (main (F := Ideal))) ⟨m, fun _ => 0, ρ⟩ fun r => ∀ c : Dev nD,
      r.2.mem ((c : Thread nD τ).loc main_v20) = outArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun r h c => ⟨(h c).1.trans (final m c), (h c).2⟩) (Value.run_blocks m ρ)

end Cert.KernelIdeal.Whole

end
-- ==== Proof.RefValue.lean ====
/-
  The reference program is the specification.

  The reference computes, for all 131072 input rows at once, the network of `Cert.Net`: subtract the decoder's bias
  row from the input, encode to 256 features (product, bias, rectifier), then to 128 (product, bias, rectifier), two
  affine maps on 128 whose matrices are transposed before the product, a rectified product to width 32, and the
  decoder: the bottleneck times its matrix, plus the 256 features times the residual matrix, plus the bias row.

  The generated module `Read` gives each operation's result at an index from its operands at an index: entry
  `(r, c)` of a product is the sum over `k` of the left operand at `(r, k)` times the right operand at `(k, c)`; a
  broadcast bias row reads its entry `c`; a transposed matrix reads `(c, k)` where the product asks for `(k, c)`; the
  rectifier's constant is the f32 word 0, which is the real number 0. Below these readings are chained layer by
  layer at explicit coordinates `(r, c)`, each layer resting on the one before, and each sum is, term by term, the
  sum the specification writes. No property of the numbers is used, only readings at an index, so the equalities
  hold for all extended-real entries, finite or not.
-/
import proofs.«151392_j34711925686336_2_alg».proof.Proof.Gen.ReferenceIdeal.Read
import proofs.«151392_j34711925686336_2_alg».proof.Proof.Net
import Idealize.ShloMosaic.Lib.ValueIdx

noncomputable section

open scoped BigOperators

namespace Cert.ReferenceIdeal.RefValue

open Idealize.ShloMosaic Idealize.ShloMosaic.ValueIdx Cert.ReferenceIdeal Cert.ReferenceIdeal.Read

/-- The first encoder. Entry `(r, j)` of the reference's first rectified product is the encoder of the specification
    at feature `j`, fed with row `r` of the input minus the bias row: the product's term `k` reads the difference at
    `(r, k)` and the matrix at `(k, j)`, the broadcast bias reads entry `j`, and the rectifier's zero is the real 0. -/
theorem enc_eq (x0 : (⟨S131072x2048, .f32⟩ : BufTy).Contents (Elt Ideal)) (x1 : (⟨S2048x256, .f32⟩ : BufTy).Contents (Elt Ideal)) (x2 : (⟨S256, .f32⟩ : BufTy).Contents (Elt Ideal)) (x11 : (⟨S2048, .f32⟩ : BufTy).Contents (Elt Ideal))
    (r : Fin 131072) (j : Fin 256) :
    val_main_v7 (F := Ideal) x0 x1 x2 x11 (ix2 r j) = (Cert.Net.enc (fun k => x0 (ix2 r k) - x11 (ix1 k)) (fun k j => x1 (ix2 k j)) (fun j => x2 (ix1 j))) j := by
  rw [val_main_v7_apply, val_main_v6_apply, val_main_v3_apply, val_main_v5_apply, val_main_v4_apply,
    val_main_call0_v0_apply, val_main_call0_cst_apply]
  have e1 : ∀ k : Fin 2048, lidx_main_v3 (ix2 r j) k = ix2 r k := fun k => funext fun a => by
    match a with | ⟨0, _⟩ => rfl | ⟨1, _⟩ => rfl
  have e2 : ∀ k : Fin 2048, ridx_main_v3 (ix2 r j) k = ix2 k j := fun k => funext fun a => by
    match a with | ⟨0, _⟩ => rfl | ⟨1, _⟩ => rfl
  have e3 : idx_main_v4 (idx_main_v5 (ix2 r j)) = ix1 j := funext fun a => by
    match a with | ⟨0, _⟩ => rfl
  have e4 : ∀ k : Fin 2048, idx_main_v0 (idx_main_v1 (ix2 r k)) = ix1 k := fun k => funext fun a => by
    match a with | ⟨0, _⟩ => rfl
  simp only [e1, e2, e3, val_main_v2_apply, val_main_v1_apply, val_main_v0_apply, e4]
  simp only [Ideal.subf_def, Ideal.addf_def, Ideal.maximumf_def, Ideal.ofBits_def, Ideal.ofBits_zero_f32]
  rfl

/-- The second encoder. Entry `(r, q)` of the reference's second rectified product is the hidden unit `q` of the
    specification on the encoded row `r`: term `j` of the product reads the first encoder at `(r, j)` and the
    matrix at `(j, q)`. -/
theorem hidden_eq (x0 : (⟨S131072x2048, .f32⟩ : BufTy).Contents (Elt Ideal)) (x1 : (⟨S2048x256, .f32⟩ : BufTy).Contents (Elt Ideal)) (x2 : (⟨S256, .f32⟩ : BufTy).Contents (Elt Ideal)) (x3 : (⟨S256x128, .f32⟩ : BufTy).Contents (Elt Ideal)) (x4 : (⟨S128, .f32⟩ : BufTy).Contents (Elt Ideal)) (x11 : (⟨S2048, .f32⟩ : BufTy).Contents (Elt Ideal))
    (r : Fin 131072) (q : Fin 128) :
    val_main_v12 (F := Ideal) x0 x1 x2 x3 x4 x11 (ix2 r q) = Cert.Net.hidden (fun j q => x3 (ix2 j q)) (fun q => x4 (ix1 q)) (Cert.Net.enc (fun k => x0 (ix2 r k) - x11 (ix1 k)) (fun k j => x1 (ix2 k j)) (fun j => x2 (ix1 j))) q := by
  rw [val_main_v12_apply, val_main_v11_apply, val_main_v8_apply, val_main_v10_apply, val_main_v9_apply,
    val_main_call1_v0_apply, val_main_call1_cst_apply]
  have e1 : ∀ k : Fin 256, lidx_main_v8 (ix2 r q) k = ix2 r k := fun k => funext fun a => by
    match a with | ⟨0, _⟩ => rfl | ⟨1, _⟩ => rfl
  have e2 : ∀ k : Fin 256, ridx_main_v8 (ix2 r q) k = ix2 k q := fun k => funext fun a => by
    match a with | ⟨0, _⟩ => rfl | ⟨1, _⟩ => rfl
  have e3 : idx_main_v9 (idx_main_v10 (ix2 r q)) = ix1 q := funext fun a => by
    match a with | ⟨0, _⟩ => rfl
  simp only [e1, e2, e3, enc_eq]
  simp only [Ideal.subf_def, Ideal.addf_def, Ideal.maximumf_def, Ideal.ofBits_def, Ideal.ofBits_zero_f32]
  rfl

/-- The value projection. Entry `(r, q)` of the reference's third product plus bias is the value unit `q`: the
    reference multiplies by the TRANSPOSE of its fifth argument, so term `p` reads that argument at `(q, p)`. -/
theorem value_eq (x0 : (⟨S131072x2048, .f32⟩ : BufTy).Contents (Elt Ideal)) (x1 : (⟨S2048x256, .f32⟩ : BufTy).Contents (Elt Ideal)) (x2 : (⟨S256, .f32⟩ : BufTy).Contents (Elt Ideal)) (x3 : (⟨S256x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x11 : (⟨S2048, .f32⟩ : BufTy).Contents (Elt Ideal))
    (r : Fin 131072) (q : Fin 128) :
    val_main_v17 (F := Ideal) x0 x1 x2 x3 x4 x5 x6 x11 (ix2 r q) = Cert.Net.value (fun j q => x3 (ix2 j q)) (fun q => x4 (ix1 q)) (fun p q => x5 (ix2 q p)) (fun q => x6 (ix1 q)) (Cert.Net.enc (fun k => x0 (ix2 r k) - x11 (ix1 k)) (fun k j => x1 (ix2 k j)) (fun j => x2 (ix1 j))) q := by
  rw [val_main_v17_apply, val_main_v14_apply, val_main_v16_apply, val_main_v15_apply]
  have e1 : ∀ k : Fin 128, lidx_main_v14 (ix2 r q) k = ix2 r k := fun k => funext fun a => by
    match a with | ⟨0, _⟩ => rfl | ⟨1, _⟩ => rfl
  have e2 : ∀ k : Fin 128, idx_main_v13 (ridx_main_v14 (ix2 r q) k) = ix2 q k := fun k => funext fun a => by
    match a with | ⟨0, _⟩ => rfl | ⟨1, _⟩ => rfl
  have e3 : idx_main_v15 (idx_main_v16 (ix2 r q)) = ix1 q := funext fun a => by
    match a with | ⟨0, _⟩ => rfl
  simp only [val_main_v13_apply, e1, e2, e3, hidden_eq]
  simp only [Ideal.subf_def, Ideal.addf_def, Ideal.maximumf_def, Ideal.ofBits_def, Ideal.ofBits_zero_f32]
  rfl

/-- The output projection. Entry `(r, q)` of the reference's fourth product plus bias is the attention output
    unit `q`; again the matrix enters transposed, so term `p` reads the seventh argument at `(q, p)`. -/
theorem attn_eq (x0 : (⟨S131072x2048, .f32⟩ : BufTy).Contents (Elt Ideal)) (x1 : (⟨S2048x256, .f32⟩ : BufTy).Contents (Elt Ideal)) (x2 : (⟨S256, .f32⟩ : BufTy).Contents (Elt Ideal)) (x3 : (⟨S256x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x11 : (⟨S2048, .f32⟩ : BufTy).Contents (Elt Ideal))
    (r : Fin 131072) (q : Fin 128) :
    val_main_v22 (F := Ideal) x0 x1 x2 x3 x4 x5 x6 x7 x8 x11 (ix2 r q) = Cert.Net.attn (fun j q => x3 (ix2 j q)) (fun q => x4 (ix1 q)) (fun p q => x5 (ix2 q p)) (fun q => x6 (ix1 q)) (fun p q => x7 (ix2 q p)) (fun q => x8 (ix1 q)) (Cert.Net.enc (fun k => x0 (ix2 r k) - x11 (ix1 k)) (fun k j => x1 (ix2 k j)) (fun j => x2 (ix1 j))) q := by
  rw [val_main_v22_apply, val_main_v19_apply, val_main_v21_apply, val_main_v20_apply]
  have e1 : ∀ k : Fin 128, lidx_main_v19 (ix2 r q) k = ix2 r k := fun k => funext fun a => by
    match a with | ⟨0, _⟩ => rfl | ⟨1, _⟩ => rfl
  have e2 : ∀ k : Fin 128, idx_main_v18 (ridx_main_v19 (ix2 r q) k) = ix2 q k := fun k => funext fun a => by
    match a with | ⟨0, _⟩ => rfl | ⟨1, _⟩ => rfl
  have e3 : idx_main_v20 (idx_main_v21 (ix2 r q)) = ix1 q := funext fun a => by
    match a with | ⟨0, _⟩ => rfl
  simp only [val_main_v18_apply, e1, e2, e3, value_eq]
  simp only [Ideal.subf_def, Ideal.addf_def, Ideal.maximumf_def, Ideal.ofBits_def, Ideal.ofBits_zero_f32]
  rfl

/-- The bottleneck. Entry `(r, k)` of the reference's rectified fifth product is the bottleneck unit `k` of width
    32: term `p` reads the attention output at `(r, p)` and the matrix at `(p, k)`. -/
theorem bott_eq (x0 : (⟨S131072x2048, .f32⟩ : BufTy).Contents (Elt Ideal)) (x1 : (⟨S2048x256, .f32⟩ : BufTy).Contents (Elt Ideal)) (x2 : (⟨S256, .f32⟩ : BufTy).Contents (Elt Ideal)) (x3 : (⟨S256x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x32, .f32⟩ : BufTy).Contents (Elt Ideal)) (x11 : (⟨S2048, .f32⟩ : BufTy).Contents (Elt Ideal))
    (r : Fin 131072) (k : Fin 32) :
    val_main_v24 (F := Ideal) x0 x1 x2 x3 x4 x5 x6 x7 x8 x9 x11 (ix2 r k)
      = Cert.Net.bott (fun j q => x3 (ix2 j q)) (fun q => x4 (ix1 q)) (fun p q => x5 (ix2 q p)) (fun q => x6 (ix1 q)) (fun p q => x7 (ix2 q p)) (fun q => x8 (ix1 q)) (fun p k => x9 (ix2 p k)) (Cert.Net.enc (fun k => x0 (ix2 r k) - x11 (ix1 k)) (fun k j => x1 (ix2 k j)) (fun j => x2 (ix1 j))) k := by
  rw [val_main_v24_apply, val_main_v23_apply, val_main_call2_v0_apply, val_main_call2_cst_apply]
  have e1 : ∀ p : Fin 128, lidx_main_v23 (ix2 r k) p = ix2 r p := fun p => funext fun a => by
    match a with | ⟨0, _⟩ => rfl | ⟨1, _⟩ => rfl
  have e2 : ∀ p : Fin 128, ridx_main_v23 (ix2 r k) p = ix2 p k := fun p => funext fun a => by
    match a with | ⟨0, _⟩ => rfl | ⟨1, _⟩ => rfl
  simp only [e1, e2, attn_eq]
  simp only [Ideal.subf_def, Ideal.addf_def, Ideal.maximumf_def, Ideal.ofBits_def, Ideal.ofBits_zero_f32]
  rfl

/-- THE REFERENCE IS THE SPECIFICATION. Entry `(r, n)` of the reference's result is the decoder of the specification at
    column `n` on the encoded row `r`: the bottleneck times the decoder matrix (term `k` reads it at `(k, n)`), plus
    the encoded row times the residual matrix (term `j` reads it at `(j, n)`), plus the bias at `n`. The value and
    output projection matrices enter transposed. -/
theorem ref_eq (x0 : (⟨S131072x2048, .f32⟩ : BufTy).Contents (Elt Ideal)) (x1 : (⟨S2048x256, .f32⟩ : BufTy).Contents (Elt Ideal)) (x2 : (⟨S256, .f32⟩ : BufTy).Contents (Elt Ideal)) (x3 : (⟨S256x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x32, .f32⟩ : BufTy).Contents (Elt Ideal)) (x10 : (⟨S32x2048, .f32⟩ : BufTy).Contents (Elt Ideal)) (x11 : (⟨S2048, .f32⟩ : BufTy).Contents (Elt Ideal)) (x12 : (⟨S256x2048, .f32⟩ : BufTy).Contents (Elt Ideal))
    (r : Fin 131072) (n : Fin 2048) :
    val_main_v30 (F := Ideal) x0 x1 x2 x3 x4 x5 x6 x7 x8 x9 x10 x11 x12 (ix2 r n)
      = Cert.Net.decode (fun j q => x3 (ix2 j q)) (fun q => x4 (ix1 q)) (fun p q => x5 (ix2 q p)) (fun q => x6 (ix1 q)) (fun p q => x7 (ix2 q p)) (fun q => x8 (ix1 q)) (fun j n => x12 (ix2 j n)) (fun n => x11 (ix1 n)) (fun p k => x9 (ix2 p k)) (fun k n => x10 (ix2 k n))
          (Cert.Net.enc (fun k => x0 (ix2 r k) - x11 (ix1 k)) (fun k j => x1 (ix2 k j)) (fun j => x2 (ix1 j))) n := by
  rw [val_main_v30_apply, val_main_v27_apply, val_main_v25_apply, val_main_v26_apply, val_main_v29_apply,
    val_main_v28_apply]
  have e1 : ∀ k : Fin 32, lidx_main_v25 (ix2 r n) k = ix2 r k := fun k => funext fun a => by
    match a with | ⟨0, _⟩ => rfl | ⟨1, _⟩ => rfl
  have e2 : ∀ k : Fin 32, ridx_main_v25 (ix2 r n) k = ix2 k n := fun k => funext fun a => by
    match a with | ⟨0, _⟩ => rfl | ⟨1, _⟩ => rfl
  have e3 : ∀ j : Fin 256, lidx_main_v26 (ix2 r n) j = ix2 r j := fun j => funext fun a => by
    match a with | ⟨0, _⟩ => rfl | ⟨1, _⟩ => rfl
  have e4 : ∀ j : Fin 256, ridx_main_v26 (ix2 r n) j = ix2 j n := fun j => funext fun a => by
    match a with | ⟨0, _⟩ => rfl | ⟨1, _⟩ => rfl
  have e5 : idx_main_v28 (idx_main_v29 (ix2 r n)) = ix1 n := funext fun a => by
    match a with | ⟨0, _⟩ => rfl
  simp only [e1, e2, e3, e4, e5, bott_eq, enc_eq]
  simp only [Ideal.subf_def, Ideal.addf_def, Ideal.maximumf_def, Ideal.ofBits_def, Ideal.ofBits_zero_f32]
  rfl

end Cert.ReferenceIdeal.RefValue

end
-- ==== Proof.LibFiniteEntry.lean ====
/-
  The "every input is finite" precondition, read at one entry, on the extended reals.

  Such a precondition tests each float argument `x` by `all (|x| < +inf)`: elementwise `|x[i]| < inf` against the f32
  pattern `0x7F800000`, reduced by `and` to one bit. There `|a| = max a (-a)`, the pattern is `⊤`, and `max a (-a) < ⊤`
  excludes both `a = ⊤` and `a = ⊥`: the entry is a real number (`entry_real`, for an array of any shape, from its
  elementwise test being 1 at that entry; the reduction's bit gives that through `Host.reduce_andi_all`, which asks for
  the `Subsingleton` instance below). Also here: the f32 pattern of 1.0 is the real number 1 (`ofBits_one_real`).
-/
import Idealize.ShloMosaic.PureOps.Ideal
import Idealize.ShloMosaic.Lib.ReduceAll

noncomputable section

namespace Cert.Lib.FiniteEntry

open Idealize.ShloMosaic

/-- The scalar shape has one index. -/
instance : Subsingleton (⟨0, ![]⟩ : Shape).Idx := ⟨fun a b => funext fun d => d.elim0⟩

/-- The f32 pattern `0x7F800000` is `+inf`. -/
theorem ofBits_inf : Ideal.ofBits .f32 0x7F800000#32 = ⊤ := by
  simp [Ideal.ofBits, Ideal.ieee]

/-- The f32 pattern `0x3F800000` is the real number 1. -/
theorem ofBits_one_real : ∃ r : ℝ, Ideal.ofBits .f32 0x3F800000#32 = (r : EReal) :=
  ⟨1, by simp [Ideal.ofBits, Ideal.ieee, -EReal.coe_mul]; norm_num⟩

/-- An extended real whose absolute value is below `+inf` is a real number. -/
theorem real_of_abs_lt_inf (a : EReal) (h : Ideal.cmp .olt (max a (-a)) (Ideal.ofBits .f32 0x7F800000#32) = 1#1) :
    ∃ r : ℝ, a = (r : EReal) := by
  rw [ofBits_inf] at h
  induction a using EReal.rec with
  | bot => simp [Ideal.cmp] at h
  | coe r => exact ⟨r, rfl⟩
  | top => simp [Ideal.cmp] at h

/-- One argument's elementwise test `|x| < inf`, 1 at entry `i`: that entry is a real number. -/
theorem entry_real {s : Shape} (hb : (⟨0, ![]⟩ : Shape).BroadcastsInDim s (![] : Fin 0 → Fin s.rank)) (x : FVec Ideal s .f32)
    (i : s.Idx)
    (h : cmpf .olt (Host.absf x) (broadcastInDim s ![] hb (constant (F := Ideal) ⟨0, ![]⟩ .f32 0x7F800000#32)) i = 1#1) :
    ∃ r : ℝ, x i = (r : EReal) :=
  real_of_abs_lt_inf (x i) h

end Cert.Lib.FiniteEntry

end
-- ==== Proof.Finite.lean ====
/-
  Every entry of the float arguments is a real number.

  The certificate's precondition says that a finiteness test of the thirteen argument arrays comes out as the bit 1.
  For each float argument `x` the test compares `|x[i]|` with `+inf` at every index (less-than, against the f32
  pattern `0x7F800000`), reduces the resulting bits by `and` over all axes starting from 1, and joins the thirteen
  results by `and` in a chain nested to the left. Reading this back:
  * an `and` of two bits is 1 only if both are, so the chain being 1 gives each argument's reduced bit;
  * a reduction by `and` over all axes that is 1 met only 1s, so the comparison is 1 at every index;
  * on the extended reals `|a| = max a (-a)` and the pattern is `⊤`; `max a (-a) < ⊤` excludes `a = ⊤` and
    `a = ⊥`, so the entry is (the image of) a real number.
  The distributive law that folds the decoder's bias into the encoder's bias needs exactly this of the four arrays it
  touches: the input rows, the encoder's matrix, the encoder's bias and the decoder's bias (arguments 0, 1, 2, 11).
-/
import proofs.«151392_j34711925686336_2_alg».proof.Defs
import proofs.«151392_j34711925686336_2_alg».proof.Proof.Gen.Pre_finite_inputs
import proofs.«151392_j34711925686336_2_alg».proof.Proof.LibFiniteEntry
import Idealize.ShloMosaic.Lib.ReduceAll

noncomputable section

namespace Cert.Proof.Finite

open Idealize.ShloMosaic Idealize.SL.Sem

/-- An elementwise `and` of two arrays of bits, read at an index, is the `and` of the two bits there. -/
theorem andi_apply {s : Shape} {w : Nat} (x y : IVec s w) (i : s.Idx) : andi x y i = IntOp.andi (x i) (y i) := rfl

/-- The finiteness test, read back. The test computes, for each of its thirteen float arguments `x`, the bit
    "every entry satisfies `|x[i]| < +inf`" (an elementwise comparison against the f32 pattern of `+inf`, reduced
    by `and` over all axes from the bit 1), and joins the thirteen bits by `and`, left to right. If the result is
    the bit 1, each of the thirteen bits is 1 (an `and` of two bits is 1 only when both are), so each argument's
    comparison is 1 at every entry (a reduction by `and` that is 1 met only 1s), so each entry's absolute value is
    below `+inf` and the entry is a real number. Stated for the first, second, third and twelfth arguments. -/
theorem fn_real [Cert.Pre_finite_inputs.Facts] (a0 : FVec Ideal Cert.Pre_finite_inputs.S131072x2048 .f32) (a1 : FVec Ideal Cert.Pre_finite_inputs.S2048x256 .f32) (a2 : FVec Ideal Cert.Pre_finite_inputs.S256 .f32) (a3 : FVec Ideal Cert.Pre_finite_inputs.S256x128 .f32) (a4 : FVec Ideal Cert.Pre_finite_inputs.S128 .f32) (a5 : FVec Ideal Cert.Pre_finite_inputs.S128x128 .f32) (a6 : FVec Ideal Cert.Pre_finite_inputs.S128 .f32) (a7 : FVec Ideal Cert.Pre_finite_inputs.S128x128 .f32) (a8 : FVec Ideal Cert.Pre_finite_inputs.S128 .f32) (a9 : FVec Ideal Cert.Pre_finite_inputs.S128x32 .f32) (a10 : FVec Ideal Cert.Pre_finite_inputs.S32x2048 .f32) (a11 : FVec Ideal Cert.Pre_finite_inputs.S2048 .f32) (a12 : FVec Ideal Cert.Pre_finite_inputs.S256x2048 .f32)
    (h : Cert.Pre_finite_inputs.fn (F := Ideal) a0 a1 a2 a3 a4 a5 a6 a7 a8 a9 a10 a11 a12 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a11 i = (r : EReal)) := by
  have h0 := congrFun h (fun a => a.elim0)
  dsimp only [Cert.Pre_finite_inputs.fn, Cert.Pre_finite_inputs.fn_part1, Cert.Pre_finite_inputs.fn_part2,
    Cert.Pre_finite_inputs.fn_part3] at h0
  simp only [andi_apply, IntOp.andi_eq_one] at h0
  obtain ⟨⟨⟨⟨⟨⟨⟨⟨⟨⟨⟨⟨t0, t1⟩, t2⟩, _⟩, _⟩, _⟩, _⟩, _⟩, _⟩, _⟩, _⟩, t11⟩, _⟩ := h0
  exact ⟨fun i => Cert.Lib.FiniteEntry.entry_real _ a0 i (Host.reduce_andi_all _ _ _ _ _ t0 i),
    fun i => Cert.Lib.FiniteEntry.entry_real _ a1 i (Host.reduce_andi_all _ _ _ _ _ t1 i),
    fun i => Cert.Lib.FiniteEntry.entry_real _ a2 i (Host.reduce_andi_all _ _ _ _ _ t2 i),
    fun i => Cert.Lib.FiniteEntry.entry_real _ a11 i (Host.reduce_andi_all _ _ _ _ _ t11 i)⟩

/-- EVERY ENTRY OF THE FOUR ARGUMENTS THE BIAS FOLD TOUCHES IS A REAL NUMBER. Under the precondition (the finiteness
    test of the thirteen argument arrays is all ones, on every device), the input rows (argument 0), the encoder's
    matrix (argument 1), the encoder's bias (argument 2) and the decoder's bias (argument 11) hold, at every index,
    an extended real that is the image of a real number: neither `+inf` nor `-inf`. -/
theorem real_args [hPre : Cert.Pre_finite_inputs.Facts]
    (m : (ℓ : Loc Cert.KernelIdeal.nD Cert.KernelIdeal.τ Cert.KernelIdeal.sig) → Buf (Elt Ideal) ℓ)
    (hm : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg1) i = (r : EReal))
    ∧ (∀ i, ∃ r : ℝ, m ((c.tc : Thread Cert.KernelIdeal.nD Cert.KernelIdeal.τ).loc Cert.KernelIdeal.main_arg2) i = (r : EReal))
    ∧ (∀ i, ∃ r : ℝ, m ((c.tc : Thread Cert.KernelIdeal.nD Cert.KernelIdeal.τ).loc Cert.KernelIdeal.main_arg11) i = (r : EReal)) :=
  fn_real _ _ _ _ _ _ _ _ _ _ _ _ _ (hm c)

end Cert.Proof.Finite

end
-- ==== Proof.Bridge.lean ====
/-
  The kernel's result is the reference's result, under the precondition.

  Row by row the kernel's result array is the network with the encoder's bias folded (`be - bd·We` added to the
  product of the raw input row) and the bottleneck carried at width 128 through zero-padded matrices; the reference's
  is the network on the input row minus `bd`, bias `be`, bottleneck at width 32. The padded matrices agree with the
  argument matrices on the first 32 columns / rows and the decoder's 96 extra rows are zero, so the padding law
  (`Cert.Net.decode_pad`) removes the extra width with no hypothesis. The bias fold is distributivity of the product
  over `a - bd`, which on the extended reals needs the entries of the input row, of `bd`, of the encoder matrix and of
  `be` to be real numbers: that is what the precondition "every float input is finite" gives.
-/
import proofs.«151392_j34711925686336_2_alg».proof.Proof.KerValue
import proofs.«151392_j34711925686336_2_alg».proof.Proof.RefValue
import proofs.«151392_j34711925686336_2_alg».proof.Proof.Finite

noncomputable section

open scoped BigOperators

namespace Cert.Proof.Bridge

open Cert.KernelIdeal Cert.KernelIdeal.Gen Cert.KernelIdeal.HostSide Cert.KernelIdeal.Whole
open Idealize.ShloMosaic Idealize.ShloMosaic.TcCoe Idealize.SL.Sem Idealize.ShloMosaic.ValueIdx

variable (m : (ℓ : Loc nD τ sig) → Buf (Elt Ideal) ℓ)

/-- The reference's row function of the arguments: input row minus the decoder bias, encoder bias as given,
    bottleneck at width 32. -/
def refRow (c : Dev nD) (r : Fin 131072) (n : Fin 2048) : EReal :=
  Cert.Net.decode (fun j q => a3 m c (ix2 j q)) (fun q => a4 m c (ix1 q)) (fun a b => a5 m c (ix2 b a))
    (fun q => a6 m c (ix1 q)) (fun a b => a7 m c (ix2 b a)) (fun q => a8 m c (ix1 q))
    (fun j n => a12 m c (ix2 j n)) (fun n => a11 m c (ix1 n))
    (fun a (k : Fin 32) => a9 m c (ix2 a k)) (fun (k : Fin 32) n => a10 m c (ix2 k n))
    (Cert.Net.enc (fun k => a0 m c (ix2 r k) - a11 m c (ix1 k)) (fun k j => a1 m c (ix2 k j)) (fun j => a2 m c (ix1 j))) n

/-- THE TWO ROW FUNCTIONS AGREE when the input rows, the encoder matrix, the encoder bias and the decoder bias hold
    real numbers. -/
theorem outRow_eq_refRow (c : Dev nD) (r : Fin 131072) (n : Fin 2048)
    (h0 : ∀ i, ∃ x : ℝ, a0 m c i = (x : EReal)) (h1 : ∀ i, ∃ x : ℝ, a1 m c i = (x : EReal))
    (h2 : ∀ i, ∃ x : ℝ, a2 m c i = (x : EReal)) (h11 : ∀ i, ∃ x : ℝ, a11 m c i = (x : EReal)) :
    outRow m c r n = refRow m c r n := by
  unfold outRow refRow
  refine (Cert.Net.decode_pad _ _ _ _ _ _ _ _ (fun a (k : Fin 32) => a9 m c (ix2 a k)) (fun (k : Fin 32) n => a10 m c (ix2 k n))
    (fun a k => wbPad m c (ix2 a k)) (fun k n => wdPad m c (ix2 k n))
    (fun p k => stage_Wb_in m c p k) (fun k n => stage_Wd_in m c k n) (fun i n => stage_Wd_out m c i n) _ n).trans ?_
  refine congrArg (fun f => Cert.Net.decode _ _ _ _ _ _ _ _ _ _ f n) (funext fun j => ?_)
  exact congrArg (fun s => max s 0) (Cert.Net.enc_bias_fold (fun k => a0 m c (ix2 r k)) (fun k => a11 m c (ix1 k))
    (fun k => a1 m c (ix2 k j)) (a2 m c (ix1 j)) (fun k => h0 _) (fun k => h11 _) (fun k => h1 _) (h2 _))

/-- UNDER THE PRECONDITION the kernel's result array is the reference's result term of the same arguments. -/
theorem outArr_eq_ref [hPre : Cert.Pre_finite_inputs.Facts] (hm : Cert.Pre_KernelIdeal m) (c : Dev nD) :
    outArr m c = Cert.ReferenceIdeal.Read.val_main_v30 (F := Ideal) (a0 m c) (a1 m c) (a2 m c) (a3 m c) (a4 m c) (a5 m c) (a6 m c)
      (a7 m c) (a8 m c) (a9 m c) (a10 m c) (a11 m c) (a12 m c) := by
  obtain ⟨f0, f1, f2, f11⟩ := Cert.Proof.Finite.real_args m hm c
  funext i
  obtain ⟨r, n, rfl⟩ : ∃ (r : Fin 131072) (n : Fin 2048), i = ix2 r n := ⟨i 0, i 1, eq_ix2 i⟩
  rw [Cert.ReferenceIdeal.RefValue.ref_eq]
  exact outRow_eq_refRow m c r n f0 f1 f2 f11

end Cert.Proof.Bridge

end
-- ==== Proof.lean ====
/-
  The certificate: a fused autoencoder kernel against its plain reference, on the extended reals.

  Both programs map each of 131072 input rows (2048 entries) through an encoder to 256 features, a second encoder to
  128, two affine maps on 128, a rectified bottleneck of width 32, and a decoder that adds the bottleneck times a
  matrix, the features times a residual matrix and a bias (`Proof/Net.lean`). The kernel runs 256 grid points of 512
  rows each, with every weight resident; it differs from the reference in two spellings: the reference subtracts the
  decoder bias from the input row before the first product, where the kernel's host code folds `bd·We` into the
  encoder bias; and the kernel carries the bottleneck at width 128 through zero-padded matrices.

  The three frames: the two kernels' are the generated frame runs; the reference's is its generated run with the
  result dropped. The idealization rewrote no operation, so there is nothing to preserve. The algebraic claim: the
  kernel's run ends with its result array at one whole-array function of the arguments (`Proof/KerValue.lean`, over
  the body's arithmetic at an entry in `Proof/KerPayload.lean` and the launch operands read at an entry in
  `Proof/KerHost.lean`); the reference's run ends at its composed term, which read at an entry is the network
  (`Proof/RefValue.lean`); and under the precondition — every float input finite, read at an entry in
  `Proof/Finite.lean` — the two agree (`Proof/Bridge.lean`: the padding law, and the bias fold by distributivity
  over real numbers).
-/
import proofs.«151392_j34711925686336_2_alg».proof.Defs
import proofs.«151392_j34711925686336_2_alg».proof.Proof.Gen.Kernel
import proofs.«151392_j34711925686336_2_alg».proof.Proof.Gen.Kernel.Skeleton
import proofs.«151392_j34711925686336_2_alg».proof.Proof.Gen.Kernel.Launch
import proofs.«151392_j34711925686336_2_alg».proof.Proof.Gen.Kernel.Points
import proofs.«151392_j34711925686336_2_alg».proof.Proof.Gen.Kernel.Frame
import proofs.«151392_j34711925686336_2_alg».proof.Proof.Gen.KernelIdeal
import proofs.«151392_j34711925686336_2_alg».proof.Proof.Gen.KernelIdeal.Skeleton
import proofs.«151392_j34711925686336_2_alg».proof.Proof.Gen.KernelIdeal.Launch
import proofs.«151392_j34711925686336_2_alg».proof.Proof.Gen.KernelIdeal.Points
import proofs.«151392_j34711925686336_2_alg».proof.Proof.Gen.KernelIdeal.Frame
import proofs.«151392_j34711925686336_2_alg».proof.Proof.Gen.ReferenceIdeal
import proofs.«151392_j34711925686336_2_alg».proof.Proof.Gen.Pre_finite_inputs
import proofs.«151392_j34711925686336_2_alg».proof.Proof.Gen.KernelIdeal.Value
import proofs.«151392_j34711925686336_2_alg».proof.Proof.Gen.ReferenceIdeal.Run
import proofs.«151392_j34711925686336_2_alg».proof.Proof.Gen.ReferenceIdeal.Read
import proofs.«151392_j34711925686336_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel runs and leaves its arguments unchanged: the generated frame run. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments unchanged: its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments, under the precondition, both programs end with the same result array:
    the kernel's at its whole-array function of the arguments, the reference's at its composed term, equal entry by
    entry. -/
theorem algebraic : Cert.algebraic_KernelIdeal_ReferenceIdeal := by
  intro m ρ m' ρ' hm hagree
  refine ⟨fun c => Cert.KernelIdeal.Whole.outArr m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨g0, g1, g2, g3, g4, g5, g6, g7, g8, g9, g10, g11, g12⟩ := hagree c
  rw [Cert.ReferenceIdeal.Read.val_main_v30_eq, g0, g1, g2, g3, g4, g5, g6, g7, g8, g9, g10, g11, g12]
  exact (Cert.Proof.Bridge.outArr_eq_ref m hm c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
